-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v65)) (v1 : (c : Dev Cert.KernelIdeal.nD) → Buf (Elt Ideal) ((c.tc : Thread Cert.KernelIdeal.nD Cert.KernelIdeal.τ).loc Cert.KernelIdeal.main_v64_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_v64_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S64x384 : Shape := ⟨2, ![64, 384]⟩
abbrev S384 : Shape := ⟨1, ![384]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x384 : S_.BroadcastsInDim S64x384 (![] : Fin 0 → Fin S64x384.rank)
  reducesTo_S64x384_S_d0_1 : S64x384.ReducesTo [0, 1] S_
  bcast_S_S384 : S_.BroadcastsInDim S384 (![] : Fin 0 → Fin S384.rank)
  reducesTo_S384_S_d0 : S384.ReducesTo [0] S_

variable [Facts]

def fn_part2 {F : FTy → Type} [FloatOps F] (main_arg8 : FVec F S384 .f32) (main_v33 : IVec S_ 1) : IVec S_ 1 :=
  let main_v34 : FVec F S384 .f32 := Host.absf main_arg8
  let main_cst_12 : FVec F S_ .f32 := constant S_ .f32 0x7F800000#32
  let main_v35 : FVec F S384 .f32 := broadcastInDim S384 ![] bcast_S_S384 main_cst_12
  let main_v36 : IVec S384 1 := cmpf .olt main_v34 main_v35
  let main_c_13 : IVec S_ 1 := constantI S_ 1 1#1
  let main_v37 : IVec S_ 1 := (fun x v => Host.reduce IntOp.andi x v reducesTo_S384_S_d0 h_S_) main_v36 main_c_13
  let main_v38 : IVec S_ 1 := andi main_v33 main_v37
  main_v38

def fn_part1 {F : FTy → Type} [FloatOps F] (main_arg5 : FVec F S64x64 .f32) (main_arg6 : FVec F S64 .f32) (main_arg7 : FVec F S64x384 .f32) (main_arg8 : FVec F S384 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x384 .f32 := Host.absf main_arg7
  let main_cst_10 : FVec F S_ .f32 := constant S_ .f32 0x7F800000#32
  let main_v30 : FVec F S64x384 .f32 := broadcastInDim S64x384 ![] bcast_S_S64x384 main_cst_10
  let main_v31 : IVec S64x384 1 := cmpf .olt main_v29 main_v30
  let main_c_11 : IVec S_ 1 := constantI S_ 1 1#1
  let main_v32 : IVec S_ 1 := (fun x v => Host.reduce IntOp.andi x v reducesTo_S64x384_S_d0_1 h_S_) main_v31 main_c_11
  let main_v33 : IVec S_ 1 := andi main_v28 main_v32
  fn_part2 (F := F) main_arg8 main_v33

def fn {F : FTy → Type} [FloatOps F] (main_arg0 : FVec F S100000x64 .f32) (main_arg1 : IVec S2x1600000 32) (main_arg2 : FVec F S1600000 .f32) (main_arg3 : FVec F S64x64 .f32) (main_arg4 : FVec F S64x64 .f32) (main_arg5 : FVec F S64x64 .f32) (main_arg6 : FVec F S64 .f32) (main_arg7 : FVec F S64x384 .f32) (main_arg8 : FVec F S384 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_v13 main_v16
-- ==== Kernel.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S64x384 : Shape := ⟨2, ![64, 384]⟩
abbrev S384 : Shape := ⟨1, ![384]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S10000x64 : Shape := ⟨2, ![10000, 64]⟩
abbrev S1700000x64 : Shape := ⟨2, ![1700000, 64]⟩
abbrev S1x64 : Shape := ⟨2, ![1, 64]⟩
abbrev S1x384 : Shape := ⟨2, ![1, 384]⟩
abbrev S100000x384 : Shape := ⟨2, ![100000, 384]⟩
abbrev S4000x64 : Shape := ⟨2, ![4000, 64]⟩
abbrev S4000x384 : Shape := ⟨2, ![4000, 384]⟩
abbrev S100000x12x32 : Shape := ⟨3, ![100000, 12, 32]⟩

abbrev nBuf : Space → Nat
  | .hbm => 92
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x384, .f32⟩
  | .hbm, ⟨8, _⟩ => ⟨S384, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S100000, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x64, .bf16⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x64, .bf16⟩
  | .hbm, ⟨61, _⟩ => ⟨S1700000x1, .f32⟩
  | .hbm, ⟨62, _⟩ => ⟨S1700000x64, .f32⟩
  | .hbm, ⟨63, _⟩ => ⟨S1700000x64, .f32⟩
  | .hbm, ⟨64, _⟩ => ⟨S1700000x64, .f32⟩
  | .hbm, ⟨65, _⟩ => ⟨S_, .f32⟩
  | .hbm, ⟨66, _⟩ => ⟨S100000x64, .f32⟩
  | .hbm, ⟨67, _⟩ => ⟨S1700000x1, .i32⟩
  | .hbm, ⟨68, _⟩ => ⟨S100000x64, .f32⟩
  | .hbm, ⟨69, _⟩ => ⟨S100000x64, .bf16⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x64, .bf16⟩
  | .hbm, ⟨79, _⟩ => ⟨S1700000x1, .f32⟩
  | .hbm, ⟨80, _⟩ => ⟨S1700000x64, .f32⟩
  | .hbm, ⟨81, _⟩ => ⟨S1700000x64, .f32⟩
  | .hbm, ⟨82, _⟩ => ⟨S1700000x64, .f32⟩
  | .hbm, ⟨83, _⟩ => ⟨S_, .f32⟩
  | .hbm, ⟨84, _⟩ => ⟨S100000x64, .f32⟩
  | .hbm, ⟨85, _⟩ => ⟨S1700000x1, .i32⟩
  | .hbm, ⟨86, _⟩ => ⟨S100000x64, .f32⟩
  | .hbm, ⟨87, _⟩ => ⟨S1x64, .f32⟩
  | .hbm, ⟨88, _⟩ => ⟨S1x384, .f32⟩
  | .hbm, ⟨89, _⟩ => ⟨S100000x64, .f32⟩
  | .hbm, ⟨90, _⟩ => ⟨S100000x384, .f32⟩
  | .hbm, ⟨91, _⟩ => ⟨S100000x12x32, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .bf16⟩
  | .local _ .vmem, ⟨4, _⟩ => ⟨S10000x64, .bf16⟩
  | .local _ .vmem, ⟨5, _⟩ => ⟨S10000x64, .f32⟩
  | .local _ .vmem, ⟨6, _⟩ => ⟨S10000x64, .f32⟩
  | .local _ .vmem, ⟨7, _⟩ => ⟨S64x64, .f32⟩
  | .local _ .vmem, ⟨8, _⟩ => ⟨S10000x64, .bf16⟩
  | .local _ .vmem, ⟨9, _⟩ => ⟨S10000x64, .bf16⟩
  | .local _ .vmem, ⟨10, _⟩ => ⟨S4000x64, .f32⟩
  | .local _ .vmem, ⟨11, _⟩ => ⟨S4000x64, .f32⟩
  | .local _ .vmem, ⟨12, _⟩ => ⟨S64x64, .f32⟩
  | .local _ .vmem, ⟨13, _⟩ => ⟨S1x64, .f32⟩
  | .local _ .vmem, ⟨14, _⟩ => ⟨S64x384, .f32⟩
  | .local _ .vmem, ⟨15, _⟩ => ⟨S1x384, .f32⟩
  | .local _ .vmem, ⟨16, _⟩ => ⟨S4000x64, .f32⟩
  | .local _ .vmem, ⟨17, _⟩ => ⟨S4000x64, .f32⟩
  | .local _ .vmem, ⟨18, _⟩ => ⟨S4000x384, .f32⟩
  | .local _ .vmem, ⟨19, _⟩ => ⟨S4000x384, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_9 : Ref sig .tc := ⟨.hbm, 70, rfl⟩
abbrev main_v48 : Ref sig .tc := ⟨.hbm, 71, rfl⟩
abbrev main_v49 : Ref sig .tc := ⟨.hbm, 72, rfl⟩
abbrev main_c_10 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64_0 : Ref sig .tc := ⟨.hbm, 89, rfl⟩
abbrev main_v64_1 : Ref sig .tc := ⟨.hbm, 90, rfl⟩
abbrev main_v65 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg5_1 : Ref sig .tc := ⟨.vmem, 17, rfl⟩
abbrev cc2_stg6_0 : Ref sig .tc := ⟨.vmem, 18, rfl⟩
abbrev cc2_stg6_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem5_1 : DmaSem sig := 17
abbrev cc2_sem6_0 : DmaSem sig := 18
abbrev cc2_sem6_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x384 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x384 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S4000x384 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  packedbf16_S10000x64_S10000x64_0_0 : (Rect.unit (s := S10000x64) ![0, 0] S10000x64.size inb_S10000x64_S10000x64_0_0).PackedRows (EltTy.packing .bf16)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S10000x64_S10000x64 : S10000x64.ShapeCasts S10000x64
  shapeCasts_S64_S1x64 : S64.ShapeCasts S1x64
  shapeCasts_S384_S1x384 : S384.ShapeCasts S1x384
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x384_S64x384_0_0 : ∀ a, (![0, 0] : Fin 2 → Nat) a + S64x384.size a ≤ S64x384.size a
  h_S64x384 : 0 < S64x384.numel
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S4000x384 : S1x384.Broadcasts S4000x384
  inb_S4000x384_S4000x384_0_0 : ∀ a, (![0, 0] : Fin 2 → Nat) a + S4000x384.size a ≤ S4000x384.size a
  h_S4000x384 : 0 < S4000x384.numel
  shapeCasts_S100000x384_S100000x12x32 : S100000x384.ShapeCasts S100000x12x32
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x64_S64x64_S10000x64_1_0_0_1_n_n_wf : DotDims.WF S10000x64 S64x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S4000x64_S64x64_S4000x64_1_0_0_1_n_n_wf : DotDims.WF S4000x64 S64x64 S4000x64 [1] [0] [0] [1] [] []
  dot_S4000x64_S64x384_S4000x384_1_0_0_1_n_n_wf : DotDims.WF S4000x64 S64x384 S4000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .bf16 = 32 ∨ (Rect.block (s := S100000x64) S10000x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .bf16 = 32 ∨ (Rect.block (s := S100000x64) S10000x64.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x384.size a ≤ S64x384.size a
  hwx2_3 : ∀ i : grid2.Coords, EltTy.bits .f32 = 32 ∨ (Rect.block (s := S64x384) S64x384.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x384.size a ≤ S1x384.size a
  hwx2_4 : ∀ i : grid2.Coords, EltTy.bits .f32 = 32 ∨ (Rect.block (s := S1x384) S1x384.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x64.size a ≤ S100000x64.size a
  hwx2_5 : ∀ i : grid2.Coords, EltTy.bits .f32 = 32 ∨ (Rect.block (s := S100000x64) S4000x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x384.size a ≤ S100000x384.size a
  hwx2_6 : ∀ i : grid2.Coords, EltTy.bits .f32 = 32 ∨ (Rect.block (s := S100000x384) S4000x384.size (cc2_transform_6 i) (hinb2_6 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x64_S64x384_S4000x384_1_0_0_1_n_n : DotDims S4000x64 S64x384 S4000x384 where
  lhsContracting := [1]
  rhsContracting := [0]
  lhsNonContracting := [0]
  rhsNonContracting := [1]
  lhsBatch := []
  rhsBatch := []
  wf := dot_S4000x64_S64x384_S4000x384_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v61) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S64x384.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v63) S1x384.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v64_0) S4000x64.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v64_1) S4000x384.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S64x384 : Shape := ⟨2, ![64, 384]⟩
abbrev S384 : Shape := ⟨1, ![384]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x384 : Shape := ⟨2, ![100000, 384]⟩
abbrev S1x384 : Shape := ⟨2, ![1, 384]⟩
abbrev S100000x12x32 : Shape := ⟨3, ![100000, 12, 32]⟩

abbrev nBuf : Space → Nat
  | .hbm => 135
  | .vmem => 0
  | .smem => 0
  | _ => 0

abbrev hbmTy0_0 (i : Nat) : BufTy := match i % 128 with
  | 0 => ⟨S100000x64, .f32⟩
  | 1 => ⟨S2x1600000, .i32⟩
  | 2 => ⟨S1600000, .f32⟩
  | 3 => ⟨S64x64, .f32⟩
  | 4 => ⟨S64x64, .f32⟩
  | 5 => ⟨S64x64, .f32⟩
  | 6 => ⟨S64, .f32⟩
  | 7 => ⟨S64x384, .f32⟩
  | 8 => ⟨S384, .f32⟩
  | 9 => ⟨S100000, .i32⟩
  | 10 => ⟨S1x1600000, .i32⟩
  | 11 => ⟨S1600000, .i32⟩
  | 12 => ⟨S1700000, .i32⟩
  | 13 => ⟨S1x1600000, .i32⟩
  | 14 => ⟨S1600000, .i32⟩
  | 15 => ⟨S1700000, .i32⟩
  | 16 => ⟨S_, .f32⟩
  | 17 => ⟨S100000, .f32⟩
  | 18 => ⟨S1700000, .f32⟩
  | 19 => ⟨S100000x64, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x64, .f32⟩
  | 61 => ⟨S1700000x1, .f32⟩
  | 62 => ⟨S1700000x64, .f32⟩
  | 63 => ⟨S1700000x64, .f32⟩
  | 64 => ⟨S_, .f32⟩
  | 65 => ⟨S100000x64, .f32⟩
  | 66 => ⟨S1700000x1, .i32⟩
  | 67 => ⟨S100000x64, .f32⟩
  | 68 => ⟨S_, .f32⟩
  | 69 => ⟨S100000x64, .f32⟩
  | 70 => ⟨S100000x64, .f32⟩
  | 71 => ⟨S100000x64, .f32⟩
  | 72 => ⟨S_, .f32⟩
  | 73 => ⟨S100000, .f32⟩
  | 74 => ⟨S1700000x1, .i32⟩
  | 75 => ⟨S100000, .f32⟩
  | 76 => ⟨S_, .f32⟩
  | 77 => ⟨S100000, .f32⟩
  | 78 => ⟨S100000, .i1⟩
  | 79 => ⟨S100000, .f32⟩
  | 80 => ⟨S_, .f32⟩
  | 81 => ⟨S_, .f32⟩
  | 82 => ⟨S100000, .f32⟩
  | 83 => ⟨S100000, .f32⟩
  | 84 => ⟨S_, .i32⟩
  | 85 => ⟨S1700000, .i32⟩
  | 86 => ⟨S1700000, .i1⟩
  | 87 => ⟨S_, .i32⟩
  | 88 => ⟨S1700000, .i32⟩
  | 89 => ⟨S1700000, .i32⟩
  | 90 => ⟨S1700000, .i32⟩
  | 91 => ⟨S1700000x1, .i32⟩
  | 92 => ⟨S1700000, .f32⟩
  | 93 => ⟨S1700000, .f32⟩
  | 94 => ⟨S_, .i32⟩
  | 95 => ⟨S1700000, .i32⟩
  | 96 => ⟨S1700000, .i1⟩
  | 97 => ⟨S_, .i32⟩
  | 98 => ⟨S1700000, .i32⟩
  | 99 => ⟨S1700000, .i32⟩
  | 100 => ⟨S1700000, .i32⟩
  | 101 => ⟨S1700000x1, .i32⟩
  | 102 => ⟨S1700000, .f32⟩
  | 103 => ⟨S1700000, .f32⟩
  | 104 => ⟨S_, .i32⟩
  | 105 => ⟨S1700000, .i32⟩
  | 106 => ⟨S1700000, .i1⟩
  | 107 => ⟨S_, .i32⟩
  | 108 => ⟨S1700000, .i32⟩
  | 109 => ⟨S1700000, .i32⟩
  | 110 => ⟨S1700000, .i32⟩
  | 111 => ⟨S1700000x1, .i32⟩
  | 112 => ⟨S1700000x64, .f32⟩
  | 113 => ⟨S1700000x1, .f32⟩
  | 114 => ⟨S1700000x64, .f32⟩
  | 115 => ⟨S1700000x64, .f32⟩
  | 116 => ⟨S_, .f32⟩
  | 117 => ⟨S100000x64, .f32⟩
  | 118 => ⟨S1700000x1, .i32⟩
  | 119 => ⟨S100000x64, .f32⟩
  | 120 => ⟨S_, .f32⟩
  | 121 => ⟨S100000x64, .f32⟩
  | 122 => ⟨S100000x64, .f32⟩
  | 123 => ⟨S100000x64, .f32⟩
  | 124 => ⟨S1x64, .f32⟩
  | 125 => ⟨S100000x64, .f32⟩
  | 126 => ⟨S100000x64, .f32⟩
  | 127 => ⟨S_, .f32⟩
  | _ => ⟨S100000x64, .f32⟩

abbrev hbmTy0_1 (i : Nat) : BufTy := match i % 128 with
  | 0 => ⟨S100000x64, .f32⟩
  | 1 => ⟨S100000x64, .f32⟩
  | 2 => ⟨S100000x384, .f32⟩
  | 3 => ⟨S1x384, .f32⟩
  | 4 => ⟨S100000x384, .f32⟩
  | 5 => ⟨S100000x384, .f32⟩
  | 6 => ⟨S100000x12x32, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_call1_cst : Ref sig .tc := ⟨.hbm, 68, rfl⟩
abbrev main_call1_v0 : Ref sig .tc := ⟨.hbm, 69, rfl⟩
abbrev main_v46 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_11 : Ref sig .tc := ⟨.hbm, 80, rfl⟩
abbrev main_call2_v0 : Ref sig .tc := ⟨.hbm, 81, rfl⟩
abbrev main_call2_v1 : Ref sig .tc := ⟨.hbm, 82, rfl⟩
abbrev main_v54 : Ref sig .tc := ⟨.hbm, 83, rfl⟩
abbrev main_c_12 : Ref sig .tc := ⟨.hbm, 84, rfl⟩
abbrev main_v55 : Ref sig .tc := ⟨.hbm, 85, rfl⟩
abbrev main_v56 : Ref sig .tc := ⟨.hbm, 86, rfl⟩
abbrev main_c_13 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_c_14 : Ref sig .tc := ⟨.hbm, 94, rfl⟩
abbrev main_v63 : Ref sig .tc := ⟨.hbm, 95, rfl⟩
abbrev main_v64 : Ref sig .tc := ⟨.hbm, 96, rfl⟩
abbrev main_c_15 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_c_16 : Ref sig .tc := ⟨.hbm, 104, rfl⟩
abbrev main_v71 : Ref sig .tc := ⟨.hbm, 105, rfl⟩
abbrev main_v72 : Ref sig .tc := ⟨.hbm, 106, rfl⟩
abbrev main_c_17 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_18 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_call3_cst : Ref sig .tc := ⟨.hbm, 120, rfl⟩
abbrev main_call3_v0 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_call4_cst : Ref sig .tc := ⟨.hbm, 127, rfl⟩
abbrev main_call4_v0 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S384_S1x384_1 : S384.BroadcastsInDim S1x384 (![1] : Fin 1 → Fin S1x384.rank)
  bcast_S1x384_S100000x384_0_1 : S1x384.BroadcastsInDim S100000x384 (![0, 1] : Fin 2 → Fin S100000x384.rank)
  shapeCasts_S100000x384_S100000x12x32 : S100000x384.ShapeCasts S100000x12x32
  dot_S100000x64_S64x64_S100000x64_1_0_0_1_n_n_wf : DotDims.WF S100000x64 S64x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x384_S100000x384_1_0_0_1_n_n_wf : DotDims.WF S100000x64 S64x384 S100000x384 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x384_S100000x384_1_0_0_1_n_n : DotDims S100000x64 S64x384 S100000x384 where
  lhsContracting := [1]
  rhsContracting := [0]
  lhsNonContracting := [0]
  rhsNonContracting := [1]
  lhsBatch := []
  rhsBatch := []
  wf := dot_S100000x64_S64x384_S100000x384_1_0_0_1_n_n_wf

class Facts : Prop extends Facts₀ where

variable [Facts]
-- ==== Proof.KernelRun.lean ====
/-
  The idealized kernel's run, with its two result buffers named.

  The program is three kernel launches among stretches of host operations.  The launch theorem for such a
  program threads the buffer contents from one stretch or launch to the next; after the last stretch every
  buffer that outlives its launch holds the end of that fold.  The statement below keeps that fact for the two
  result buffers (and, as the frame statement does, for the nine argument buffers, which the fold never writes).
-/
import proofs.«177352_j25632364822536_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; at the end the two result buffers hold
    the end of the fold of buffer contents through the program's stretches and launches, and the argument buffers
    are as launched. -/
theorem run_fold : θ_run defs (onTc (τ := τ) (main (F := F))) ⟨m, fun _ => 0, ρ⟩ (fun r => ∀ c : Dev nD,
      r.2.mem ((c.tc : Thread nD τ).loc main_v65) = W9 m ρ c (Proc.devRef .tc main_v65)
      ∧ r.2.mem ((c.tc : Thread nD τ).loc main_v64_0) = W9 m ρ c (Proc.devRef .tc main_v64_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v65 (by decide)),
       h c _ (mem_uc main_v64_0 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.RunValue

end
-- ==== Proof.KernelHost.lean ====
/-
  The host operations of the idealized kernel's program, read as functions of arrays.

  Between its three launches the program builds, from the edge list and the edge weights, the source and target
  index of every edge with one self-loop per node appended (`rowOf`, `colOf`), the symmetric normalisation
  `d[row]^(-1/2) · w · d[col]^(-1/2)` of every edge from the weighted in-degree `d` (`normOf`), and twice the
  aggregation of the rows of a node array along the edges: gather the source rows, scale each by its edge's
  normalisation, add into the target rows (`aggOf`).  Each function below is the composition of the program's own
  operations in program order; the theorems say which buffer holds which function's value at which point of the fold
  of buffer contents through the program.
-/
import proofs.«177352_j25632364822536_2_alg».proof.Proof.Gen.KernelIdeal.Frame
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

variable {F : FTy → Type} [FloatOps F]

/-- Source node of every edge, the self-loops appended. -/
def rowOf (x1 : (⟨S2x1600000, .i32⟩ : BufTy).Contents (Elt F)) : (⟨S1700000, .i32⟩ : BufTy).Contents (Elt F) :=
  (((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) (shapeCast _ (((extractStridedSlice S1x1600000 ![0, 0] · slices_S2x1600000_S1x1600000_0_0) : (⟨S2x1600000, .i32⟩ : BufTy).Contents (Elt F) → (⟨S1x1600000, .i32⟩ : BufTy).Contents (Elt F)) x1) shapeCasts_S1x1600000_S1600000) ((iotaInDim S100000 32 0)))

/-- Target node of every edge, the self-loops appended. -/
def colOf (x1 : (⟨S2x1600000, .i32⟩ : BufTy).Contents (Elt F)) : (⟨S1700000, .i32⟩ : BufTy).Contents (Elt F) :=
  (((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) (shapeCast _ (((extractStridedSlice S1x1600000 ![1, 0] · slices_S2x1600000_S1x1600000_1_0) : (⟨S2x1600000, .i32⟩ : BufTy).Contents (Elt F) → (⟨S1x1600000, .i32⟩ : BufTy).Contents (Elt F)) x1) shapeCasts_S1x1600000_S1600000) ((iotaInDim S100000 32 0)))

/-- The normalisation of every edge: the weights with a one per self-loop, the weighted in-degree of every node, its
    inverse square root where the degree is positive and zero elsewhere, and the product of the two ends' factors with
    the weight. -/
def normOf (row col : (⟨S1700000, .i32⟩ : BufTy).Contents (Elt F)) (x2 : (⟨S1600000, .f32⟩ : BufTy).Contents (Elt F)) : (⟨S1700000, .f32⟩ : BufTy).Contents (Elt F) :=
  ((mulf : (⟨S1700000, .f32⟩ : BufTy).Contents (Elt F) → (⟨S1700000, .f32⟩ : BufTy).Contents (Elt F) → (⟨S1700000, .f32⟩ : BufTy).Contents (Elt F)) ((mulf : (⟨S1700000, .f32⟩ : BufTy).Contents (Elt F) → (⟨S1700000, .f32⟩ : BufTy).Contents (Elt F) → (⟨S1700000, .f32⟩ : BufTy).Contents (Elt F)) (((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)) ((select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ((cmpf .ogt : (⟨S100000, .f32⟩ : BufTy).Contents (Elt F) → (⟨S100000, .f32⟩ : BufTy).Contents (Elt F) → (⟨S100000, .i1⟩ : BufTy).Contents (Elt F)) (((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) ((constant S_ .f32 0x00000000#32))) ((broadcastInDim S1700000x1 ![0] bcast_S1700000_S1700000x1_0 : (⟨S1700000, .i32⟩ : BufTy).Contents (Elt F) → (⟨S1700000x1, .i32⟩ : BufTy).Contents (Elt F)) col) (((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)) x2 ((broadcastInDim S100000 ![] bcast_S_S100000 : (⟨S_, .f32⟩ : BufTy).Contents (Elt F) → (⟨S100000, .f32⟩ : BufTy).Contents (Elt F)) ((constant S_ .f32 0x3F800000#32))))) ((broadcastInDim S100000 ![] bcast_S_S100000 : (⟨S_, .f32⟩ : BufTy).Contents (Elt F) → (⟨S100000, .f32⟩ : BufTy).Contents (Elt F)) ((constant S_ .f32 0x00000000#32)))) ((Host.rsqrt : (⟨S100000, .f32⟩ : BufTy).Contents (Elt F) → (⟨S100000, .f32⟩ : BufTy).Contents (Elt F)) (((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) ((constant S_ .f32 0x00000000#32))) ((broadcastInDim S1700000x1 ![0] bcast_S1700000_S1700000x1_0 : (⟨S1700000, .i32⟩ : BufTy).Contents (Elt F) → (⟨S1700000x1, .i32⟩ : BufTy).Contents (Elt F)) col) (((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)) x2 ((broadcastInDim S100000 ![] bcast_S_S100000 : (⟨S_, .f32⟩ : BufTy).Contents (Elt F) → (⟨S100000, .f32⟩ : BufTy).Contents (Elt F)) ((constant S_ .f32 0x3F800000#32)))))) ((broadcastInDim S100000 ![] bcast_S_S100000 : (⟨S_, .f32⟩ : BufTy).Contents (Elt F) → (⟨S100000, .f32⟩ : BufTy).Contents (Elt F)) ((id : (⟨S_, .f32⟩ : BufTy).Contents (Elt F) → (⟨S_, .f32⟩ : BufTy).Contents (Elt F)) ((constant S_ .f32 0x00000000#32))))) ((broadcastInDim S1700000x1 ![0] bcast_S1700000_S1700000x1_0 : (⟨S1700000, .i32⟩ : BufTy).Contents (Elt F) → (⟨S1700000x1, .i32⟩ : BufTy).Contents (Elt F)) ((select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) ((cmpi .slt : (⟨S1700000, .i32⟩ : BufTy).Contents (Elt F) → (⟨S1700000, .i32⟩ : BufTy).Contents (Elt F) → (⟨S1700000, .i1⟩ : BufTy).Contents (Elt F)) row ((broadcastInDim S1700000 ![] bcast_S_S1700000 : (⟨S_, .i32⟩ : BufTy).Contents (Elt F) → (⟨S1700000, .i32⟩ : BufTy).Contents (Elt F)) ((constantI S_ 32 0#32)))) ((addi : (⟨S1700000, .i32⟩ : BufTy).Contents (Elt F) → (⟨S1700000, .i32⟩ : BufTy).Contents (Elt F) → (⟨S1700000, .i32⟩ : BufTy).Contents (Elt F)) row ((broadcastInDim S1700000 ![] bcast_S_S1700000 : (⟨S_, .i32⟩ : BufTy).Contents (Elt F) → (⟨S1700000, .i32⟩ : BufTy).Contents (Elt F)) ((constantI S_ 32 100000#32)))) row))) (((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)) x2 ((broadcastInDim S100000 ![] bcast_S_S100000 : (⟨S_, .f32⟩ : BufTy).Contents (Elt F) → (⟨S100000, .f32⟩ : BufTy).Contents (Elt F)) ((constant S_ .f32 0x3F800000#32))))) (((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)) ((select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ((cmpf .ogt : (⟨S100000, .f32⟩ : BufTy).Contents (Elt F) → (⟨S100000, .f32⟩ : BufTy).Contents (Elt F) → (⟨S100000, .i1⟩ : BufTy).Contents (Elt F)) (((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) ((constant S_ .f32 0x00000000#32))) ((broadcastInDim S1700000x1 ![0] bcast_S1700000_S1700000x1_0 : (⟨S1700000, .i32⟩ : BufTy).Contents (Elt F) → (⟨S1700000x1, .i32⟩ : BufTy).Contents (Elt F)) col) (((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)) x2 ((broadcastInDim S100000 ![] bcast_S_S100000 : (⟨S_, .f32⟩ : BufTy).Contents (Elt F) → (⟨S100000, .f32⟩ : BufTy).Contents (Elt F)) ((constant S_ .f32 0x3F800000#32))))) ((broadcastInDim S100000 ![] bcast_S_S100000 : (⟨S_, .f32⟩ : BufTy).Contents (Elt F) → (⟨S100000, .f32⟩ : BufTy).Contents (Elt F)) ((constant S_ .f32 0x00000000#32)))) ((Host.rsqrt : (⟨S100000, .f32⟩ : BufTy).Contents (Elt F) → (⟨S100000, .f32⟩ : BufTy).Contents (Elt F)) (((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) ((constant S_ .f32 0x00000000#32))) ((broadcastInDim S1700000x1 ![0] bcast_S1700000_S1700000x1_0 : (⟨S1700000, .i32⟩ : BufTy).Contents (Elt F) → (⟨S1700000x1, .i32⟩ : BufTy).Contents (Elt F)) col) (((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)) x2 ((broadcastInDim S100000 ![] bcast_S_S100000 : (⟨S_, .f32⟩ : BufTy).Contents (Elt F) → (⟨S100000, .f32⟩ : BufTy).Contents (Elt F)) ((constant S_ .f32 0x3F800000#32)))))) ((broadcastInDim S100000 ![] bcast_S_S100000 : (⟨S_, .f32⟩ : BufTy).Contents (Elt F) → (⟨S100000, .f32⟩ : BufTy).Contents (Elt F)) ((id : (⟨S_, .f32⟩ : BufTy).Contents (Elt F) → (⟨S_, .f32⟩ : BufTy).Contents (Elt F)) ((constant S_ .f32 0x00000000#32))))) ((broadcastInDim S1700000x1 ![0] bcast_S1700000_S1700000x1_0 : (⟨S1700000, .i32⟩ : BufTy).Contents (Elt F) → (⟨S1700000x1, .i32⟩ : BufTy).Contents (Elt F)) ((select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) ((cmpi .slt : (⟨S1700000, .i32⟩ : BufTy).Contents (Elt F) → (⟨S1700000, .i32⟩ : BufTy).Contents (Elt F) → (⟨S1700000, .i1⟩ : BufTy).Contents (Elt F)) col ((broadcastInDim S1700000 ![] bcast_S_S1700000 : (⟨S_, .i32⟩ : BufTy).Contents (Elt F) → (⟨S1700000, .i32⟩ : BufTy).Contents (Elt F)) ((constantI S_ 32 0#32)))) ((addi : (⟨S1700000, .i32⟩ : BufTy).Contents (Elt F) → (⟨S1700000, .i32⟩ : BufTy).Contents (Elt F) → (⟨S1700000, .i32⟩ : BufTy).Contents (Elt F)) col ((broadcastInDim S1700000 ![] bcast_S_S1700000 : (⟨S_, .i32⟩ : BufTy).Contents (Elt F) → (⟨S1700000, .i32⟩ : BufTy).Contents (Elt F)) ((constantI S_ 32 100000#32)))) col))))

/-- One aggregation along the edges: row `e` of the messages is row `row[e]` of `h` scaled by `nrm[e]`, and the
    messages are added into the rows `col[e]` of a zero array. -/
def aggOf (row col : (⟨S1700000, .i32⟩ : BufTy).Contents (Elt F)) (nrm : (⟨S1700000, .f32⟩ : BufTy).Contents (Elt F)) (h : (⟨S100000x64, .bf16⟩ : BufTy).Contents (Elt F)) : (⟨S100000x64, .f32⟩ : BufTy).Contents (Elt F) :=
  (((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ((broadcastInDim S100000x64 ![] bcast_S_S100000x64 : (⟨S_, .f32⟩ : BufTy).Contents (Elt F) → (⟨S100000x64, .f32⟩ : BufTy).Contents (Elt F)) ((constant S_ .f32 0x00000000#32))) ((broadcastInDim S1700000x1 ![0] bcast_S1700000_S1700000x1_0 : (⟨S1700000, .i32⟩ : BufTy).Contents (Elt F) → (⟨S1700000x1, .i32⟩ : BufTy).Contents (Elt F)) col) ((mulf : (⟨S1700000x64, .f32⟩ : BufTy).Contents (Elt F) → (⟨S1700000x64, .f32⟩ : BufTy).Contents (Elt F) → (⟨S1700000x64, .f32⟩ : BufTy).Contents (Elt F)) (((extf .f32 · bitsLt_bf16_f32) : (⟨S1700000x64, .bf16⟩ : BufTy).Contents (Elt F) → (⟨S1700000x64, .f32⟩ : BufTy).Contents (Elt F)) (((fun x i => Host.gather gather_S100000x64_S1700000x1_S1700000x64_1_0_n_n_0_1_164 x i) : (⟨S100000x64, .bf16⟩ : BufTy).Contents (Elt F) → (⟨S1700000x1, .i32⟩ : BufTy).Contents (Elt F) → (⟨S1700000x64, .bf16⟩ : BufTy).Contents (Elt F)) h ((broadcastInDim S1700000x1 ![0] bcast_S1700000_S1700000x1_0 : (⟨S1700000, .i32⟩ : BufTy).Contents (Elt F) → (⟨S1700000x1, .i32⟩ : BufTy).Contents (Elt F)) ((select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) ((cmpi .slt : (⟨S1700000, .i32⟩ : BufTy).Contents (Elt F) → (⟨S1700000, .i32⟩ : BufTy).Contents (Elt F) → (⟨S1700000, .i1⟩ : BufTy).Contents (Elt F)) row ((broadcastInDim S1700000 ![] bcast_S_S1700000 : (⟨S_, .i32⟩ : BufTy).Contents (Elt F) → (⟨S1700000, .i32⟩ : BufTy).Contents (Elt F)) ((constantI S_ 32 0#32)))) ((addi : (⟨S1700000, .i32⟩ : BufTy).Contents (Elt F) → (⟨S1700000, .i32⟩ : BufTy).Contents (Elt F) → (⟨S1700000, .i32⟩ : BufTy).Contents (Elt F)) row ((broadcastInDim S1700000 ![] bcast_S_S1700000 : (⟨S_, .i32⟩ : BufTy).Contents (Elt F) → (⟨S1700000, .i32⟩ : BufTy).Contents (Elt F)) ((constantI S_ 32 100000#32)))) row)))) ((broadcastInDim S1700000x64 ![0, 1] bcast_S1700000x1_S1700000x64_0_1 : (⟨S1700000x1, .f32⟩ : BufTy).Contents (Elt F) → (⟨S1700000x64, .f32⟩ : BufTy).Contents (Elt F)) ((broadcastInDim S1700000x1 ![0] bcast_S1700000_S1700000x1_0 : (⟨S1700000, .f32⟩ : BufTy).Contents (Elt F) → (⟨S1700000x1, .f32⟩ : BufTy).Contents (Elt F)) nrm))))

variable (m : (ℓ : Loc nD τ sig) → Buf (Elt F) ℓ) (ρ : Dev nD → PrngReg)

/-! ## Before the first launch -/

set_option maxHeartbeats 4000000 in
theorem W3_row (c : Dev nD) : W3 m ρ c (Proc.devRef .tc main_v3) = rowOf (m ((c.tc : Thread nD τ).loc main_arg1)) := by
  dsimp only [W3, W2, W1, hostOps0, hostOps0_1, hostOps0_2]
  after_results_simp <;> rfl
set_option maxHeartbeats 4000000 in
theorem W3_col (c : Dev nD) : W3 m ρ c (Proc.devRef .tc main_v6) = colOf (m ((c.tc : Thread nD τ).loc main_arg1)) := by
  dsimp only [W3, W2, W1, hostOps0, hostOps0_1, hostOps0_2]
  after_results_simp <;> rfl
set_option maxHeartbeats 4000000 in
theorem W3_norm (c : Dev nD) : W3 m ρ c (Proc.devRef .tc main_v31)
    = normOf (rowOf (m ((c.tc : Thread nD τ).loc main_arg1))) (colOf (m ((c.tc : Thread nD τ).loc main_arg1)))
        (m ((c.tc : Thread nD τ).loc main_arg2)) := by
  dsimp only [W3, W2, W1, hostOps0, hostOps0_1, hostOps0_2]
  after_results_simp <;> rfl
set_option maxHeartbeats 4000000 in
theorem W3_arg0 (c : Dev nD) : W3 m ρ c (Proc.devRef .tc main_arg0) = m ((c.tc : Thread nD τ).loc main_arg0) := by
  dsimp only [W3, W2, W1, hostOps0, hostOps0_1, hostOps0_2]
  after_results_simp <;> rfl
set_option maxHeartbeats 4000000 in
theorem W3_arg3 (c : Dev nD) : W3 m ρ c (Proc.devRef .tc main_arg3) = m ((c.tc : Thread nD τ).loc main_arg3) := by
  dsimp only [W3, W2, W1, hostOps0, hostOps0_1, hostOps0_2]
  after_results_simp <;> rfl
set_option maxHeartbeats 4000000 in
theorem W3_arg4 (c : Dev nD) : W3 m ρ c (Proc.devRef .tc main_arg4) = m ((c.tc : Thread nD τ).loc main_arg4) := by
  dsimp only [W3, W2, W1, hostOps0, hostOps0_1, hostOps0_2]
  after_results_simp <;> rfl
set_option maxHeartbeats 4000000 in
theorem W3_arg5 (c : Dev nD) : W3 m ρ c (Proc.devRef .tc main_arg5) = m ((c.tc : Thread nD τ).loc main_arg5) := by
  dsimp only [W3, W2, W1, hostOps0, hostOps0_1, hostOps0_2]
  after_results_simp <;> rfl
set_option maxHeartbeats 4000000 in
theorem W3_arg6 (c : Dev nD) : W3 m ρ c (Proc.devRef .tc main_arg6) = m ((c.tc : Thread nD τ).loc main_arg6) := by
  dsimp only [W3, W2, W1, hostOps0, hostOps0_1, hostOps0_2]
  after_results_simp <;> rfl
set_option maxHeartbeats 4000000 in
theorem W3_arg7 (c : Dev nD) : W3 m ρ c (Proc.devRef .tc main_arg7) = m ((c.tc : Thread nD τ).loc main_arg7) := by
  dsimp only [W3, W2, W1, hostOps0, hostOps0_1, hostOps0_2]
  after_results_simp <;> rfl
set_option maxHeartbeats 4000000 in
theorem W3_arg8 (c : Dev nD) : W3 m ρ c (Proc.devRef .tc main_arg8) = m ((c.tc : Thread nD τ).loc main_arg8) := by
  dsimp only [W3, W2, W1, hostOps0, hostOps0_1, hostOps0_2]
  after_results_simp <;> rfl

/-! ## Between the first and the second launch -/

theorem W5_agg (c : Dev nD) : W5 m ρ c (Proc.devRef .tc main_v46)
    = aggOf (W4 m ρ c (Proc.devRef .tc main_v3)) (W4 m ρ c (Proc.devRef .tc main_v6)) (W4 m ρ c (Proc.devRef .tc main_v31))
        (W4 m ρ c (Proc.devRef .tc main_v32)) := by
  dsimp only [W5, hostOps1]
  after_results_simp <;> rfl
theorem W5_v3 (c : Dev nD) : W5 m ρ c (Proc.devRef .tc main_v3) = W4 m ρ c (Proc.devRef .tc main_v3) := by
  dsimp only [W5, hostOps1]
  after_results_simp <;> rfl
theorem W5_v6 (c : Dev nD) : W5 m ρ c (Proc.devRef .tc main_v6) = W4 m ρ c (Proc.devRef .tc main_v6) := by
  dsimp only [W5, hostOps1]
  after_results_simp <;> rfl
theorem W5_v31 (c : Dev nD) : W5 m ρ c (Proc.devRef .tc main_v31) = W4 m ρ c (Proc.devRef .tc main_v31) := by
  dsimp only [W5, hostOps1]
  after_results_simp <;> rfl
theorem W5_arg4 (c : Dev nD) : W5 m ρ c (Proc.devRef .tc main_arg4) = W4 m ρ c (Proc.devRef .tc main_arg4) := by
  dsimp only [W5, hostOps1]
  after_results_simp <;> rfl
theorem W5_arg5 (c : Dev nD) : W5 m ρ c (Proc.devRef .tc main_arg5) = W4 m ρ c (Proc.devRef .tc main_arg5) := by
  dsimp only [W5, hostOps1]
  after_results_simp <;> rfl
theorem W5_arg6 (c : Dev nD) : W5 m ρ c (Proc.devRef .tc main_arg6) = W4 m ρ c (Proc.devRef .tc main_arg6) := by
  dsimp only [W5, hostOps1]
  after_results_simp <;> rfl
theorem W5_arg7 (c : Dev nD) : W5 m ρ c (Proc.devRef .tc main_arg7) = W4 m ρ c (Proc.devRef .tc main_arg7) := by
  dsimp only [W5, hostOps1]
  after_results_simp <;> rfl
theorem W5_arg8 (c : Dev nD) : W5 m ρ c (Proc.devRef .tc main_arg8) = W4 m ρ c (Proc.devRef .tc main_arg8) := by
  dsimp only [W5, hostOps1]
  after_results_simp <;> rfl

/-! ## Between the second and the third launch -/

theorem W7_agg (c : Dev nD) : W7 m ρ c (Proc.devRef .tc main_v61)
    = aggOf (W6 m ρ c (Proc.devRef .tc main_v3)) (W6 m ρ c (Proc.devRef .tc main_v6)) (W6 m ρ c (Proc.devRef .tc main_v31))
        (W6 m ρ c (Proc.devRef .tc main_v47)) := by
  dsimp only [W7, hostOps2]
  after_results_simp <;> rfl
theorem W7_b1 (c : Dev nD) : W7 m ρ c (Proc.devRef .tc main_v62)
    = shapeCast S1x64 (W6 m ρ c (Proc.devRef .tc main_arg6)) shapeCasts_S64_S1x64 := by
  dsimp only [W7, hostOps2]
  after_results_simp <;> rfl
theorem W7_b2 (c : Dev nD) : W7 m ρ c (Proc.devRef .tc main_v63)
    = shapeCast S1x384 (W6 m ρ c (Proc.devRef .tc main_arg8)) shapeCasts_S384_S1x384 := by
  dsimp only [W7, hostOps2]
  after_results_simp <;> rfl
theorem W7_arg5 (c : Dev nD) : W7 m ρ c (Proc.devRef .tc main_arg5) = W6 m ρ c (Proc.devRef .tc main_arg5) := by
  dsimp only [W7, hostOps2]
  after_results_simp <;> rfl
theorem W7_arg7 (c : Dev nD) : W7 m ρ c (Proc.devRef .tc main_arg7) = W6 m ρ c (Proc.devRef .tc main_arg7) := by
  dsimp only [W7, hostOps2]
  after_results_simp <;> rfl

/-! ## After the third launch -/

theorem W9_out (c : Dev nD) : W9 m ρ c (Proc.devRef .tc main_v65)
    = shapeCast S100000x12x32 (W8 m ρ c (Proc.devRef .tc main_v64_1)) shapeCasts_S100000x384_S100000x12x32 := by
  dsimp only [W9, hostOps3]
  after_results_simp <;> rfl
theorem W9_hidden (c : Dev nD) : W9 m ρ c (Proc.devRef .tc main_v64_0) = W8 m ρ c (Proc.devRef .tc main_v64_0) := by
  dsimp only [W9, hostOps3]
  after_results_simp <;> rfl

end Cert.KernelIdeal.HostValue

end
-- ==== Proof.Dense.lean ====
/-
  The dense layers of the network, as functions of whole arrays on the extended reals.

  `lin x w` is the matrix product: entry `(p, q)` is the sum over `k` of `x[p, k] · w[k, q]`.
  `relu x` is the entrywise maximum with zero.  `affine x w b` adds to each row of `x · w` the one row of `b`.
  The readout of the network is `affine (relu (affine h A₁ b₁)) A₂ b₂` of `h = relu agg`.

  A block of consecutive rows of any of these is the same function of the same block of rows of the left operand:
  every entry depends on one row of the left operand only (`lin_rows`, `relu_rows`, `affine_rows`).
-/
import Idealize.ShloMosaic.PureOps.Ideal.Laws
import Idealize.ShloMosaic.Lib.ValueIdx

noncomputable section

open scoped BigOperators

namespace GCN

open Idealize.ShloMosaic Idealize.ShloMosaic.ValueIdx

/-- The matrix product of an `M × K` by a `K × N` array: entry `(p, q)` is `∑ k, x[p, k] · w[k, q]`. -/
def lin {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (n0 := M) (i 0) k) * w (ix2 (n1 := N) k (i 1))

theorem lin_apply {M K N : Nat} (x : (⟨2, ![M, K]⟩ : Shape).Idx → EReal) (w : (⟨2, ![K, N]⟩ : Shape).Idx → EReal)
    (p : Fin M) (q : Fin N) : lin x w (ix2 p q) = ∑ k : Fin K, x (ix2 p k) * w (ix2 k q) := rfl

/-- The entrywise maximum with zero. -/
def relu {s : Shape} (x : s.Idx → EReal) : s.Idx → EReal := fun i => max (x i) 0

theorem relu_apply {s : Shape} (x : s.Idx → EReal) (i : s.Idx) : relu x i = max (x i) 0 := rfl

/-- `x · w` with the one row of `b` added to every row. -/
def affine {M K N : Nat} (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => lin x w i + b (ix2 (0 : Fin 1) (n1 := N) (i 1))

theorem affine_apply {M K N : Nat} (x : (⟨2, ![M, K]⟩ : Shape).Idx → EReal) (w : (⟨2, ![K, N]⟩ : Shape).Idx → EReal)
    (b : (⟨2, ![1, N]⟩ : Shape).Idx → EReal) (p : Fin M) (q : Fin N) :
    affine x w b (ix2 p q) = (∑ k : Fin K, x (ix2 p k) * w (ix2 k q)) + b (ix2 (0 : Fin 1) q) := rfl

/-- The readout: two dense layers with a rectifier between them. -/
def readout {M K H N : Nat} (h : (⟨2, ![M, K]⟩ : Shape).Idx → EReal) (a1 : (⟨2, ![K, H]⟩ : Shape).Idx → EReal)
    (b1 : (⟨2, ![1, H]⟩ : Shape).Idx → EReal) (a2 : (⟨2, ![H, N]⟩ : Shape).Idx → EReal)
    (b2 : (⟨2, ![1, N]⟩ : Shape).Idx → EReal) : (⟨2, ![M, N]⟩ : Shape).Idx → EReal :=
  affine (relu (affine h a1 b1)) a2 b2

/-- Rows `o, o+1, …` of an array, as an array of `B` rows (`hB`: they are rows of the array). -/
def rows {M N : Nat} (B o : Nat) (hB : o + B ≤ M) (x : (⟨2, ![M, N]⟩ : Shape).Idx → EReal) :
    (⟨2, ![B, N]⟩ : Shape).Idx → EReal :=
  fun j => x (ix2 (⟨o + (j 0).val, by have := (j 0).isLt; have : (j 0).val < B := this; omega⟩ : Fin M) (n1 := N) (j 1))

theorem rows_apply {M N : Nat} (B o : Nat) (hB : o + B ≤ M) (x : (⟨2, ![M, N]⟩ : Shape).Idx → EReal) (r : Fin B) (q : Fin N) :
    rows B o hB x (ix2 r q) = x (ix2 (⟨o + r.val, by have := r.isLt; omega⟩ : Fin M) q) := rfl

/-- A block of rows of a product is the product of that block of rows. -/
theorem lin_rows {M K N : Nat} (B o : Nat) (hB : o + B ≤ M) (x : (⟨2, ![M, K]⟩ : Shape).Idx → EReal)
    (w : (⟨2, ![K, N]⟩ : Shape).Idx → EReal) : rows B o hB (lin x w) = lin (rows B o hB x) w := by
  funext j
  obtain ⟨r, q, rfl⟩ : ∃ (r : Fin B) (q : Fin N), j = ix2 r q := ⟨j 0, j 1, eq_ix2 j⟩
  rfl

theorem relu_rows {M N : Nat} (B o : Nat) (hB : o + B ≤ M) (x : (⟨2, ![M, N]⟩ : Shape).Idx → EReal) :
    rows B o hB (relu x) = relu (rows B o hB x) := rfl

theorem affine_rows {M K N : Nat} (B o : Nat) (hB : o + B ≤ M) (x : (⟨2, ![M, K]⟩ : Shape).Idx → EReal)
    (w : (⟨2, ![K, N]⟩ : Shape).Idx → EReal) (b : (⟨2, ![1, N]⟩ : Shape).Idx → EReal) :
    rows B o hB (affine x w b) = affine (rows B o hB x) w b := by
  funext j
  obtain ⟨r, q, rfl⟩ : ∃ (r : Fin B) (q : Fin N), j = ix2 r q := ⟨j 0, j 1, eq_ix2 j⟩
  rfl

theorem readout_rows {M K H N : Nat} (B o : Nat) (hB : o + B ≤ M) (h : (⟨2, ![M, K]⟩ : Shape).Idx → EReal)
    (a1 : (⟨2, ![K, H]⟩ : Shape).Idx → EReal) (b1 : (⟨2, ![1, H]⟩ : Shape).Idx → EReal)
    (a2 : (⟨2, ![H, N]⟩ : Shape).Idx → EReal) (b2 : (⟨2, ![1, N]⟩ : Shape).Idx → EReal) :
    rows B o hB (readout h a1 b1 a2 b2) = readout (rows B o hB h) a1 b1 a2 b2 := by
  unfold readout
  rw [affine_rows, relu_rows, affine_rows]

end GCN

end
-- ==== Proof.LibMatmulNN.lean ====
/-
  A matrix product of a row-major `M × K` block against a `K × N` block (the right operand NOT transposed:
  the left operand's axis 1 is contracted with the right operand's axis 0), accumulated into the zero block,
  read at the extended reals: entry `(p, q)` of the result is the sum over `k` of `x[p, k] · w[k, q]`.
  The matrix unit's contraction index ranges over a one-axis shape of extent `K`; it is re-indexed to `Fin K`,
  and the operand indices the dot's dimension record computes are named coordinate by coordinate.
  General in the three extents and in the operands' float formats.
-/
import Idealize.ShloMosaic.PureOps.Ideal.Laws
import Idealize.ShloMosaic.Lib.ValueIdx

noncomputable section

open scoped BigOperators

namespace LibMatmulNN

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index at output index `(p, q)` and contraction index `k` is `(k, q)`. -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- Entry `(p, q)` of `x · w` accumulated into zero is `∑ k, x[p, k] · w[k, q]` on the extended reals. -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [lhsIdx_eq, rhsIdx_eq]

end LibMatmulNN

end
-- ==== Proof.Region0.lean ====
/-
  The first launch: `x · W₁`.  Ten grid points; point `t` loads rows `10000·t …` of `x` and the whole weight, and
  stores their product into the same rows of the output.  An entry of a matrix product reads one row of the left
  operand, so block `t` of the output is block `t` of the product of the whole arrays, and the ten blocks cover the
  array: after the launch the output array is the product.  Stated at any contents `V` of the buffers at the
  launch's entry.
-/
import proofs.«177352_j25632364822536_2_alg».proof.Proof.Gen.KernelIdeal.Frame
import proofs.«177352_j25632364822536_2_alg».proof.Proof.Dense
import proofs.«177352_j25632364822536_2_alg».proof.Proof.LibMatmulNN
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem origin : (![0, 0] : Fin 2 → Nat) = fun _ => 0 := funext fun a => by fin_cases a <;> rfl

/-- The body's one store: the product of the block of rows by the weight, read at an entry. -/
theorem pay_eq (x : Vec Ideal S10000x64 .f32) (w : Vec Ideal S64x64 .f32) :
    k0_pay1 (F := Ideal) x w = GCN.lin (M := 10000) (K := 64) (N := 64) x w := by
  funext j
  obtain ⟨p, q, rfl⟩ : ∃ (p : Fin 10000) (q : Fin 64), j = ix2 p q := ⟨j 0, j 1, eq_ix2 j⟩
  unfold k0_pay1
  exact LibMatmulNN.matmul_zero_apply 10000 64 64 none _ _ p q

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point `t` writes back is the block of rows `t` of the product of the whole operand by the weight: an
    entry of the product reads one row of the left operand, and the block's row `r` is row `10000·t + r` of the array. -/
theorem flushed_eq (c : Dev nD) (t : Fin cfg0.N) :
    (dat0 V c).flushed 2 t = ((cfg0.win 2).blk t).view.read (Elt Ideal)
      (GCN.lin (M := 100000) (K := 64) (N := 64) (V c main_arg0) (V c main_arg3)) := by
  show (cfg0.win 2).cut (grid0.coords t) ((dat0 V c).after 2 t) = _
  rw [after0_2]
  unfold out0_2
  rw [View.canon_unit_zero origin]
  simp only [View.ld_unit_zero (S := S10000x64) origin, View.ld_unit_zero (S := S64x64) origin]
  rw [pay_eq]
  obtain ⟨e0, e1, e2, e3, e4, e5⟩ := idx_facts t
  funext j
  show GCN.lin (M := 10000) (K := 64) (N := 64) (iblk0 V c 0 t) (iblk0 V c 1 t) j
      = GCN.lin (M := 100000) (K := 64) (N := 64) (V c main_arg0) (V c main_arg3) (((cfg0.win 2).blk t).view.emb j)
  unfold GCN.lin
  refine Finset.sum_congr rfl fun k _ => ?_
  have h0 : ((cfg0.win 0).blk t).view.emb (ix2 (n0 := 10000) (j 0) k)
      = ix2 (n0 := 100000) ((((cfg0.win 2).blk t).view.emb j) 0) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 64 + 1 * k.val = k.val; omega
  have h1 : ((cfg0.win 1).blk t).view.emb (ix2 (n1 := 64) k (j 1))
      = ix2 (n1 := 64) k ((((cfg0.win 2).blk t).view.emb j) 1) := by
    funext a; apply Fin.ext
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega
  exact congrArg₂ (· * ·) (congrArg (V c main_arg0) h0) (congrArg (V c main_arg3) h1)

/-- An index of the array is in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v32).slice (win0_2.rect t)).set ↔ _
  rw [View.set_slice_whole, Rect.mem_set_unit]
  exact Iff.rfl

/-- Row `r` of the array lies in the block of point `r / 10000`: the ten blocks cover the array. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : (i 0).val / 10000 < grid0.N := by rw [N_0]; omega
  obtain ⟨e0, e1, e2, e3, e4, e5⟩ := idx_facts ⟨(i 0).val / 10000, hN⟩
  refine ⟨⟨(i 0).val / 10000, hN⟩, flush0_2 _, ?_⟩
  rw [mem_blk]
  intro a
  match a with
  | ⟨0, _⟩ =>
    show win0_2.index ⟨(i 0).val / 10000, hN⟩ (0 : Fin 2) * 10000 ≤ (i 0).val
      ∧ (i 0).val < win0_2.index ⟨(i 0).val / 10000, hN⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, hN⟩ (1 : Fin 2) * 64 ≤ (i 1).val
      ∧ (i 1).val < win0_2.index ⟨(i 0).val / 10000, hN⟩ (1 : Fin 2) * 64 + 64
    rw [e5]; omega

/-- After the launch the output array is the product of the whole left operand by the weight. -/
theorem final (c : Dev nD) : (dat0 V c).arrAt 2 cfg0.N
    = GCN.lin (M := 100000) (K := 64) (N := 64) (V c main_arg0) (V c main_arg3) :=
  (dat0 V c).arrAt_eq_of_cover 2 _ (fun t _ => flushed_eq V c t) cover

end Cert.KernelIdeal.Region0
end
-- ==== Proof.Region1.lean ====
/-
  The second launch: `relu(a) · W₂`.  As the first launch, with the rectifier applied to the loaded block before
  the product; the rectifier is entrywise, so it commutes with taking a block of rows.  After the launch the output
  array is the product of the rectified whole input by the weight.  Stated at any contents `V` of the buffers at the
  launch's entry.
-/
import proofs.«177352_j25632364822536_2_alg».proof.Proof.Gen.KernelIdeal.Frame
import proofs.«177352_j25632364822536_2_alg».proof.Proof.Dense
import proofs.«177352_j25632364822536_2_alg».proof.Proof.LibMatmulNN
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem origin : (![0, 0] : Fin 2 → Nat) = fun _ => 0 := funext fun a => by fin_cases a <;> rfl

/-- The rectifier the body applies to its block: the entrywise maximum with the zero word. -/
theorem relu_eq (x : Vec Ideal S10000x64 .f32) :
    maximumf (shapeCast S10000x64 x shapeCasts_S10000x64_S10000x64) (broadcast S10000x64 (Scalar.ofBits (F := Ideal) .f32 0x00000000#32))
      = GCN.relu x := by
  rw [shapeCast_self]
  funext i
  show max (x i) (Ideal.ofBits .f32 0x00000000#32) = max (x i) 0
  rw [Ideal.ofBits_zero_f32]

/-- The body's one store: the product of the rectified block of rows by the weight, read at an entry. -/
theorem pay_eq (x : Vec Ideal S10000x64 .f32) (w : Vec Ideal S64x64 .f32) :
    k1_pay1 (F := Ideal) x w = GCN.lin (M := 10000) (K := 64) (N := 64) (GCN.relu x) w := by
  funext j
  obtain ⟨p, q, rfl⟩ : ∃ (p : Fin 10000) (q : Fin 64), j = ix2 p q := ⟨j 0, j 1, eq_ix2 j⟩
  unfold k1_pay1
  rw [relu_eq]
  exact LibMatmulNN.matmul_zero_apply 10000 64 64 none _ _ p q

theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What grid point `t` writes back is the block of rows `t` of the product of the whole rectified operand by the weight: an
    entry of the product reads one row of the left operand, and the block's row `r` is row `10000·t + r` of the array. -/
theorem flushed_eq (c : Dev nD) (t : Fin cfg1.N) :
    (dat1 V c).flushed 2 t = ((cfg1.win 2).blk t).view.read (Elt Ideal)
      (GCN.lin (M := 100000) (K := 64) (N := 64) (GCN.relu (V c main_v46)) (V c main_arg4)) := by
  show (cfg1.win 2).cut (grid1.coords t) ((dat1 V c).after 2 t) = _
  rw [after1_2]
  unfold out1_2
  rw [View.canon_unit_zero origin]
  simp only [View.ld_unit_zero (S := S10000x64) origin, View.ld_unit_zero (S := S64x64) origin]
  rw [pay_eq]
  obtain ⟨e0, e1, e2, e3, e4, e5⟩ := idx_facts t
  funext j
  show GCN.lin (M := 10000) (K := 64) (N := 64) (GCN.relu (iblk1 V c 0 t)) (iblk1 V c 1 t) j
      = GCN.lin (M := 100000) (K := 64) (N := 64) (GCN.relu (V c main_v46)) (V c main_arg4) (((cfg1.win 2).blk t).view.emb j)
  unfold GCN.lin
  refine Finset.sum_congr rfl fun k _ => ?_
  have h0 : ((cfg1.win 0).blk t).view.emb (ix2 (n0 := 10000) (j 0) k)
      = ix2 (n0 := 100000) ((((cfg1.win 2).blk t).view.emb j) 0) k := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * k.val = k.val; omega
  have h1 : ((cfg1.win 1).blk t).view.emb (ix2 (n1 := 64) k (j 1))
      = ix2 (n1 := 64) k ((((cfg1.win 2).blk t).view.emb j) 1) := by
    funext a; apply Fin.ext
    match a with
    | ⟨0, _⟩ => show win1_1.index t (0 : Fin 2) * 64 + 1 * k.val = k.val; omega
    | ⟨1, _⟩ => show win1_1.index t (1 : Fin 2) * 64 + 1 * (j 1).val = win1_2.index t (1 : Fin 2) * 64 + 1 * (j 1).val; omega
  exact congrArg₂ (· * ·) (congrArg (GCN.relu (V c main_v46)) h0) (congrArg (V c main_arg4) h1)

/-- An index of the array is in point `t`'s block iff each coordinate is in the block's range on its axis. -/
theorem mem_blk (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v47).slice (win1_2.rect t)).set ↔ _
  rw [View.set_slice_whole, Rect.mem_set_unit]
  exact Iff.rfl

/-- Row `r` of the array lies in the block of point `r / 10000`: the ten blocks cover the array. -/
theorem cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : (i 0).val / 10000 < grid1.N := by rw [N_1]; omega
  obtain ⟨e0, e1, e2, e3, e4, e5⟩ := idx_facts ⟨(i 0).val / 10000, hN⟩
  refine ⟨⟨(i 0).val / 10000, hN⟩, flush1_2 _, ?_⟩
  rw [mem_blk]
  intro a
  match a with
  | ⟨0, _⟩ =>
    show win1_2.index ⟨(i 0).val / 10000, hN⟩ (0 : Fin 2) * 10000 ≤ (i 0).val
      ∧ (i 0).val < win1_2.index ⟨(i 0).val / 10000, hN⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, hN⟩ (1 : Fin 2) * 64 ≤ (i 1).val
      ∧ (i 1).val < win1_2.index ⟨(i 0).val / 10000, hN⟩ (1 : Fin 2) * 64 + 64
    rw [e5]; omega

/-- After the launch the output array is the product of the whole left operand by the weight. -/
theorem final (c : Dev nD) : (dat1 V c).arrAt 2 cfg1.N
    = GCN.lin (M := 100000) (K := 64) (N := 64) (GCN.relu (V c main_v46)) (V c main_arg4) :=
  (dat1 V c).arrAt_eq_of_cover 2 _ (fun t _ => flushed_eq V c t) cover

end Cert.KernelIdeal.Region1
end
-- ==== Proof.Region2.lean ====
/-
  The third launch: the readout.  Per block of 4000 rows the body stores the rectified block (the hidden state) and the
  two-layer readout of it.  Both are row-local functions, so after the 25 grid points the two output arrays are
  the rectifier and the readout of the whole input array.
-/
import proofs.«177352_j25632364822536_2_alg».proof.Proof.Gen.KernelIdeal.Frame
import proofs.«177352_j25632364822536_2_alg».proof.Proof.Dense
import proofs.«177352_j25632364822536_2_alg».proof.Proof.LibMatmulNN
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem origin : (![0, 0] : Fin 2 → Nat) = fun _ => 0 := funext fun a => by fin_cases a <;> rfl

/-! ## The body's two stores as functions of its loads -/

/-- The entrywise maximum with the zero word is the rectifier. -/
theorem relu_eq (x : FVec Ideal S4000x64 .f32) :
    maximumf x (broadcast S4000x64 (Scalar.ofBits (F := Ideal) .f32 0x00000000#32)) = GCN.relu x := by
  funext i
  show max (x i) (Ideal.ofBits .f32 0x00000000#32) = max (x i) 0
  rw [Ideal.ofBits_zero_f32]

/-- The first store: the rectified block. -/
theorem pay1_eq (x : Vec Ideal S4000x64 .f32) : k2_pay1 (F := Ideal) x = GCN.relu x := by
  unfold k2_pay1
  show maximumf (shapeCast S4000x64 x shapeCasts_S4000x64_S4000x64) (broadcast S4000x64 (Scalar.ofBits (F := Ideal) .f32 0x00000000#32)) = _
  rw [shapeCast_self, relu_eq]

/-- A product into the zero accumulator plus a broadcast row: the first dense layer. -/
theorem dense1 (h : FVec Ideal S4000x64 .f32) (a : Vec Ideal S64x64 .f32) (b : Vec Ideal S1x64 .f32) :
    addf (matmul dot_S4000x64_S64x64_S4000x64_1_0_0_1_n_n none (truncf .bf16 h bitsLt_bf16_f32) (truncf .bf16 a bitsLt_bf16_f32)
        (constant S4000x64 .f32 0x00000000#32))
      (broadcastTo S4000x64 (shapeCast S1x64 b shapeCasts_S1x64_S1x64) broadcasts_S1x64_S4000x64)
    = GCN.affine (M := 4000) (K := 64) (N := 64) h a b := by
  funext j
  obtain ⟨p, q, rfl⟩ : ∃ (p : Fin 4000) (q : Fin 64), j = ix2 p q := ⟨j 0, j 1, eq_ix2 j⟩
  rw [shapeCast_self]
  exact congrArg₂ (· + ·) (LibMatmulNN.matmul_zero_apply 4000 64 64 none _ _ p q) (broadcastTo_1b_ab_apply b _ p q)

/-- The second dense layer. -/
theorem dense2 (h : FVec Ideal S4000x64 .f32) (a : Vec Ideal S64x384 .f32) (b : Vec Ideal S1x384 .f32) :
    addf (matmul dot_S4000x64_S64x384_S4000x384_1_0_0_1_n_n none (truncf .bf16 h bitsLt_bf16_f32) (truncf .bf16 a bitsLt_bf16_f32)
        (constant S4000x384 .f32 0x00000000#32))
      (broadcastTo S4000x384 (shapeCast S1x384 b shapeCasts_S1x384_S1x384) broadcasts_S1x384_S4000x384)
    = GCN.affine (M := 4000) (K := 64) (N := 384) h a b := by
  funext j
  obtain ⟨p, q, rfl⟩ : ∃ (p : Fin 4000) (q : Fin 384), j = ix2 p q := ⟨j 0, j 1, eq_ix2 j⟩
  rw [shapeCast_self]
  exact congrArg₂ (· + ·) (LibMatmulNN.matmul_zero_apply 4000 64 384 none _ _ p q) (broadcastTo_1b_ab_apply b _ p q)

/-- The second store: the readout of the rectified block. -/
theorem pay2_eq (v0 : Vec Ideal S4000x64 .f32) (v6 : Vec Ideal S64x64 .f32) (v9 : Vec Ideal S1x64 .f32)
    (v16 : Vec Ideal S64x384 .f32) (v19 : Vec Ideal S1x384 .f32) :
    k2_pay2 (F := Ideal) v0 v6 v9 v16 v19
      = GCN.readout (M := 4000) (K := 64) (H := 64) (N := 384) (GCN.relu v0) v6 v9 v16 v19 := by
  unfold k2_pay2 GCN.readout
  show addf (matmul dot_S4000x64_S64x384_S4000x384_1_0_0_1_n_n none
        (truncf .bf16 (maximumf (addf (matmul dot_S4000x64_S64x64_S4000x64_1_0_0_1_n_n none
              (truncf .bf16 (k2_pay1 (F := Ideal) v0) bitsLt_bf16_f32) (truncf .bf16 v6 bitsLt_bf16_f32) (constant S4000x64 .f32 0x00000000#32))
            (broadcastTo S4000x64 (shapeCast S1x64 v9 shapeCasts_S1x64_S1x64) broadcasts_S1x64_S4000x64))
          (broadcast S4000x64 (Scalar.ofBits (F := Ideal) .f32 0x00000000#32))) bitsLt_bf16_f32)
        (truncf .bf16 v16 bitsLt_bf16_f32) (constant S4000x384 .f32 0x00000000#32))
      (broadcastTo S4000x384 (shapeCast S1x384 v19 shapeCasts_S1x384_S1x384) broadcasts_S1x384_S4000x384) = _
  rw [pay1_eq, dense1, relu_eq, dense2]

/-! ## The windows' blocks as rows of their arrays -/

theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

theorem rows_le (t : Fin cfg2.N) : t.val * 4000 + 4000 ≤ 100000 := by
  have h : t.val < grid2.N := t.isLt
  rw [N_2] at h; omega

/-- The input window's block at point `t` is rows `4000·t …` of the input array. -/
theorem iblk_0 (c : Dev nD) (t : Fin cfg2.N) :
    iblk2 V c 0 t = GCN.rows (M := 100000) (N := 64) 4000 (t.val * 4000) (rows_le t) (V c main_v61) := by
  obtain ⟨e0, e1, -⟩ := idx_facts t
  funext y
  obtain ⟨r, q, rfl⟩ : ∃ (r : Fin 4000) (q : Fin 64), y = ix2 r q := ⟨y 0, y 1, eq_ix2 y⟩
  show V c main_v61 (((cfg2.win 0).blk t).view.emb (ix2 r q)) = V c main_v61 (ix2 (⟨t.val * 4000 + r.val, _⟩ : Fin 100000) q)
  refine congrArg (V c main_v61) (funext fun a => Fin.ext ?_)
  match a with
  | ⟨0, _⟩ => show win2_0.index t (0 : Fin 2) * 4000 + 1 * r.val = t.val * 4000 + r.val; omega
  | ⟨1, _⟩ => show win2_0.index t (1 : Fin 2) * 64 + 1 * q.val = q.val; omega

/-- The four parameter windows hold their whole arrays at every point. -/
theorem iblk_1 (c : Dev nD) (t : Fin cfg2.N) : iblk2 V c 1 t = V c main_arg5 := by
  obtain ⟨-, -, e2, e3, -⟩ := idx_facts t
  funext y
  show V c main_arg5 (((cfg2.win 1).blk t).view.emb y) = V c main_arg5 y
  refine congrArg (V c main_arg5) (funext fun a => Fin.ext ?_)
  match a with
  | ⟨0, _⟩ => show win2_1.index t (0 : Fin 2) * 64 + 1 * (y 0).val = (y 0).val; omega
  | ⟨1, _⟩ => show win2_1.index t (1 : Fin 2) * 64 + 1 * (y 1).val = (y 1).val; omega
theorem iblk_2 (c : Dev nD) (t : Fin cfg2.N) : iblk2 V c 2 t = V c main_v62 := by
  obtain ⟨-, -, -, -, e4, e5, -⟩ := idx_facts t
  funext y
  show V c main_v62 (((cfg2.win 2).blk t).view.emb y) = V c main_v62 y
  refine congrArg (V c main_v62) (funext fun a => Fin.ext ?_)
  match a with
  | ⟨0, _⟩ => show win2_2.index t (0 : Fin 2) * 1 + 1 * (y 0).val = (y 0).val; omega
  | ⟨1, _⟩ => show win2_2.index t (1 : Fin 2) * 64 + 1 * (y 1).val = (y 1).val; omega
theorem iblk_3 (c : Dev nD) (t : Fin cfg2.N) : iblk2 V c 3 t = V c main_arg7 := by
  obtain ⟨-, -, -, -, -, -, e6, e7, -⟩ := idx_facts t
  funext y
  show V c main_arg7 (((cfg2.win 3).blk t).view.emb y) = V c main_arg7 y
  refine congrArg (V c main_arg7) (funext fun a => Fin.ext ?_)
  match a with
  | ⟨0, _⟩ => show win2_3.index t (0 : Fin 2) * 64 + 1 * (y 0).val = (y 0).val; omega
  | ⟨1, _⟩ => show win2_3.index t (1 : Fin 2) * 384 + 1 * (y 1).val = (y 1).val; omega
theorem iblk_4 (c : Dev nD) (t : Fin cfg2.N) : iblk2 V c 4 t = V c main_v63 := by
  obtain ⟨-, -, -, -, -, -, -, -, e8, e9, -⟩ := idx_facts t
  funext y
  show V c main_v63 (((cfg2.win 4).blk t).view.emb y) = V c main_v63 y
  refine congrArg (V c main_v63) (funext fun a => Fin.ext ?_)
  match a with
  | ⟨0, _⟩ => show win2_4.index t (0 : Fin 2) * 1 + 1 * (y 0).val = (y 0).val; omega
  | ⟨1, _⟩ => show win2_4.index t (1 : Fin 2) * 384 + 1 * (y 1).val = (y 1).val; omega

/-- Reading block `t` of the first output window out of an array takes its rows `4000·t …`. -/
theorem read_5 (t : Fin cfg2.N) (G : S100000x64.Idx → EReal) :
    ((cfg2.win 5).blk t).view.read (Elt Ideal) G = GCN.rows (M := 100000) (N := 64) 4000 (t.val * 4000) (rows_le t) G := by
  obtain ⟨-, -, -, -, -, -, -, -, -, -, e10, e11, -⟩ := idx_facts t
  funext y
  obtain ⟨r, q, rfl⟩ : ∃ (r : Fin 4000) (q : Fin 64), y = ix2 r q := ⟨y 0, y 1, eq_ix2 y⟩
  show G (((cfg2.win 5).blk t).view.emb (ix2 r q)) = G (ix2 (⟨t.val * 4000 + r.val, _⟩ : Fin 100000) q)
  refine congrArg G (funext fun a => Fin.ext ?_)
  match a with
  | ⟨0, _⟩ => show win2_5.index t (0 : Fin 2) * 4000 + 1 * r.val = t.val * 4000 + r.val; omega
  | ⟨1, _⟩ => show win2_5.index t (1 : Fin 2) * 64 + 1 * q.val = q.val; omega

/-- Reading block `t` of the second output window out of an array takes its rows `4000·t …`. -/
theorem read_6 (t : Fin cfg2.N) (G : S100000x384.Idx → EReal) :
    ((cfg2.win 6).blk t).view.read (Elt Ideal) G = GCN.rows (M := 100000) (N := 384) 4000 (t.val * 4000) (rows_le t) G := by
  obtain ⟨-, -, -, -, -, -, -, -, -, -, -, -, e12, e13⟩ := idx_facts t
  funext y
  obtain ⟨r, q, rfl⟩ : ∃ (r : Fin 4000) (q : Fin 384), y = ix2 r q := ⟨y 0, y 1, eq_ix2 y⟩
  show G (((cfg2.win 6).blk t).view.emb (ix2 r q)) = G (ix2 (⟨t.val * 4000 + r.val, _⟩ : Fin 100000) q)
  refine congrArg G (funext fun a => Fin.ext ?_)
  match a with
  | ⟨0, _⟩ => show win2_6.index t (0 : Fin 2) * 4000 + 1 * r.val = t.val * 4000 + r.val; omega
  | ⟨1, _⟩ => show win2_6.index t (1 : Fin 2) * 384 + 1 * q.val = q.val; omega

/-! ## What each point writes back -/

theorem flushed5_eq (c : Dev nD) (t : Fin cfg2.N) :
    (dat2 V c).flushed 5 t = ((cfg2.win 5).blk t).view.read (Elt Ideal) (GCN.relu (V c main_v61)) := by
  show (cfg2.win 5).cut (grid2.coords t) ((dat2 V c).after 5 t) = _
  rw [after2_5]
  unfold out2_5
  rw [View.canon_unit_zero origin]
  simp only [View.ld_unit_zero (S := S4000x64) origin]
  rw [pay1_eq, read_5, GCN.relu_rows, iblk_0]
  rfl

theorem flushed6_eq (c : Dev nD) (t : Fin cfg2.N) :
    (dat2 V c).flushed 6 t = ((cfg2.win 6).blk t).view.read (Elt Ideal)
      (GCN.readout (M := 100000) (K := 64) (H := 64) (N := 384) (GCN.relu (V c main_v61)) (V c main_arg5) (V c main_v62)
        (V c main_arg7) (V c main_v63)) := by
  show (cfg2.win 6).cut (grid2.coords t) ((dat2 V c).after 6 t) = _
  rw [after2_6]
  unfold out2_6
  rw [View.canon_unit_zero origin]
  simp only [View.ld_unit_zero (S := S4000x64) origin, View.ld_unit_zero (S := S64x64) origin,
    View.ld_unit_zero (S := S1x64) origin, View.ld_unit_zero (S := S64x384) origin, View.ld_unit_zero (S := S1x384) origin]
  rw [pay2_eq, read_6, GCN.readout_rows, GCN.relu_rows, iblk_0, iblk_1, iblk_2, iblk_3, iblk_4]
  rfl

/-! ## The blocks cover the arrays -/

theorem mem_blk5 (t : Fin cfg2.N) (i : S100000x64.Idx) :
    i ∈ ((cfg2.win 5).blk t).view.set ↔ ∀ a : Fin 2, win2_5.index t a * S4000x64.size a ≤ (i a).val
      ∧ (i a).val < win2_5.index t a * S4000x64.size a + S4000x64.size a := by
  show i ∈ ((View.whole main_v64_0).slice (win2_5.rect t)).set ↔ _
  rw [View.set_slice_whole, Rect.mem_set_unit]
  exact Iff.rfl

theorem mem_blk6 (t : Fin cfg2.N) (i : S100000x384.Idx) :
    i ∈ ((cfg2.win 6).blk t).view.set ↔ ∀ a : Fin 2, win2_6.index t a * S4000x384.size a ≤ (i a).val
      ∧ (i a).val < win2_6.index t a * S4000x384.size a + S4000x384.size a := by
  show i ∈ ((View.whole main_v64_1).slice (win2_6.rect t)).set ↔ _
  rw [View.set_slice_whole, Rect.mem_set_unit]
  exact Iff.rfl

/-- Row `r` lies in the block of point `r / 4000`. -/
theorem cover5 (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : (i 0).val / 4000 < grid2.N := by rw [N_2]; omega
  obtain ⟨-, -, -, -, -, -, -, -, -, -, e10, e11, -⟩ := idx_facts ⟨(i 0).val / 4000, hN⟩
  refine ⟨⟨(i 0).val / 4000, hN⟩, flush2_5 _, ?_⟩
  rw [mem_blk5]
  intro a
  match a with
  | ⟨0, _⟩ =>
    show win2_5.index ⟨(i 0).val / 4000, hN⟩ (0 : Fin 2) * 4000 ≤ (i 0).val
      ∧ (i 0).val < win2_5.index ⟨(i 0).val / 4000, hN⟩ (0 : Fin 2) * 4000 + 4000
    rw [e10]; show (i 0).val / 4000 * 4000 ≤ (i 0).val ∧ (i 0).val < (i 0).val / 4000 * 4000 + 4000; omega
  | ⟨1, _⟩ =>
    show win2_5.index ⟨(i 0).val / 4000, hN⟩ (1 : Fin 2) * 64 ≤ (i 1).val
      ∧ (i 1).val < win2_5.index ⟨(i 0).val / 4000, hN⟩ (1 : Fin 2) * 64 + 64
    rw [e11]; omega

theorem cover6 (i : S100000x384.Idx) :
    ∃ t : Fin cfg2.N, (cfg2.win 6).flush t = true ∧ i ∈ ((cfg2.win 6).blk t).view.set := by
  have hi0 : (i 0).val < 100000 := (i 0).isLt
  have hi1 : (i 1).val < 384 := (i 1).isLt
  have hN : (i 0).val / 4000 < grid2.N := by rw [N_2]; omega
  obtain ⟨-, -, -, -, -, -, -, -, -, -, -, -, e12, e13⟩ := idx_facts ⟨(i 0).val / 4000, hN⟩
  refine ⟨⟨(i 0).val / 4000, hN⟩, flush2_6 _, ?_⟩
  rw [mem_blk6]
  intro a
  match a with
  | ⟨0, _⟩ =>
    show win2_6.index ⟨(i 0).val / 4000, hN⟩ (0 : Fin 2) * 4000 ≤ (i 0).val
      ∧ (i 0).val < win2_6.index ⟨(i 0).val / 4000, hN⟩ (0 : Fin 2) * 4000 + 4000
    rw [e12]; show (i 0).val / 4000 * 4000 ≤ (i 0).val ∧ (i 0).val < (i 0).val / 4000 * 4000 + 4000; omega
  | ⟨1, _⟩ =>
    show win2_6.index ⟨(i 0).val / 4000, hN⟩ (1 : Fin 2) * 384 ≤ (i 1).val
      ∧ (i 1).val < win2_6.index ⟨(i 0).val / 4000, hN⟩ (1 : Fin 2) * 384 + 384
    rw [e13]; omega

/-! ## The two output arrays after the launch -/

theorem final5 (c : Dev nD) : (dat2 V c).arrAt 5 cfg2.N = GCN.relu (V c main_v61) :=
  (dat2 V c).arrAt_eq_of_cover 5 _ (fun t _ => flushed5_eq V c t) cover5

theorem final6 (c : Dev nD) : (dat2 V c).arrAt 6 cfg2.N
    = GCN.readout (M := 100000) (K := 64) (H := 64) (N := 384) (GCN.relu (V c main_v61)) (V c main_arg5) (V c main_v62)
        (V c main_arg7) (V c main_v63) :=
  (dat2 V c).arrAt_eq_of_cover 6 _ (fun t _ => flushed6_eq V c t) cover6

end Cert.KernelIdeal.Region2
end
-- ==== Proof.KernelValue.lean ====
/-
  The idealized kernel's two results as functions of its nine argument arrays.

  Walking the fold of buffer contents through the program: the first launch leaves `x · W₁`; the host aggregates it
  along the edges; the second launch leaves `relu(·) · W₂` of that; the host aggregates again; the third launch
  leaves the rectified aggregate (the hidden state, the second result) and its readout, which a last reshape turns
  into the first result.
-/
import proofs.«177352_j25632364822536_2_alg».proof.Proof.KernelHost
import proofs.«177352_j25632364822536_2_alg».proof.Proof.Region0
import proofs.«177352_j25632364822536_2_alg».proof.Proof.Region1
import proofs.«177352_j25632364822536_2_alg».proof.Proof.Region2
import proofs.«177352_j25632364822536_2_alg».proof.Proof.Dense

set_option maxRecDepth 16384

noncomputable section

namespace Cert.KernelIdeal.FoldValue

open Cert.KernelIdeal Cert.KernelIdeal.Gen
open Idealize.ShloMosaic Idealize.ShloMosaic.TcCoe Idealize.SL.Sem Idealize.ShloMosaic.StableHlo
open Cert.KernelIdeal.HostValue

/-! ## The network as a function of arrays -/

section Spec
variable (x0 : (⟨S100000x64, .f32⟩ : BufTy).Contents (Elt Ideal)) (x1 : (⟨S2x1600000, .i32⟩ : BufTy).Contents (Elt Ideal))
  (x2 : (⟨S1600000, .f32⟩ : BufTy).Contents (Elt Ideal)) (x3 x4 x5 : (⟨S64x64, .f32⟩ : BufTy).Contents (Elt Ideal))
  (x6 : (⟨S64, .f32⟩ : BufTy).Contents (Elt Ideal)) (x7 : (⟨S64x384, .f32⟩ : BufTy).Contents (Elt Ideal))
  (x8 : (⟨S384, .f32⟩ : BufTy).Contents (Elt Ideal))

/-- The first graph convolution before its rectifier: the aggregate of `x · W₁`. -/
def layer1 : (⟨S100000x64, .f32⟩ : BufTy).Contents (Elt Ideal) :=
  aggOf (rowOf x1) (colOf x1) (normOf (rowOf x1) (colOf x1) x2) (GCN.lin (M := 100000) (K := 64) (N := 64) x0 x3)

/-- The second graph convolution before its rectifier: the aggregate of `relu(layer1) · W₂`. -/
def layer2 : (⟨S100000x64, .f32⟩ : BufTy).Contents (Elt Ideal) :=
  aggOf (rowOf x1) (colOf x1) (normOf (rowOf x1) (colOf x1) x2)
    (GCN.lin (M := 100000) (K := 64) (N := 64) (GCN.relu (s := S100000x64) (layer1 x0 x1 x2 x3)) x4)

/-- The hidden state. -/
def hiddenOf : (⟨S100000x64, .f32⟩ : BufTy).Contents (Elt Ideal) := GCN.relu (s := S100000x64) (layer2 x0 x1 x2 x3 x4)

/-- The readout of the hidden state, before the last reshape. -/
def flatOf : (⟨S100000x384, .f32⟩ : BufTy).Contents (Elt Ideal) :=
  GCN.readout (M := 100000) (K := 64) (H := 64) (N := 384) (hiddenOf x0 x1 x2 x3 x4) x5
    (shapeCast S1x64 x6 shapeCasts_S64_S1x64) x7 (shapeCast S1x384 x8 shapeCasts_S384_S1x384)

end Spec

variable (m : (ℓ : Loc nD τ sig) → Buf (Elt Ideal) ℓ) (ρ : Dev nD → PrngReg)

/-! ## The fold, buffer by buffer -/

theorem W4_row (c : Dev nD) : W4 m ρ c (Proc.devRef .tc main_v3) = rowOf (m ((c.tc : Thread nD τ).loc main_arg1)) :=
  (W4_of_ne m ρ c main_v3 (by decide)).trans (W3_row m ρ c)
theorem W4_col (c : Dev nD) : W4 m ρ c (Proc.devRef .tc main_v6) = colOf (m ((c.tc : Thread nD τ).loc main_arg1)) :=
  (W4_of_ne m ρ c main_v6 (by decide)).trans (W3_col m ρ c)
theorem W4_norm (c : Dev nD) : W4 m ρ c (Proc.devRef .tc main_v31) = normOf (rowOf (m ((c.tc : Thread nD τ).loc main_arg1))) (colOf (m ((c.tc : Thread nD τ).loc main_arg1))) (m ((c.tc : Thread nD τ).loc main_arg2)) :=
  (W4_of_ne m ρ c main_v31 (by decide)).trans (W3_norm m ρ c)
theorem W4_arg4 (c : Dev nD) : W4 m ρ c (Proc.devRef .tc main_arg4) = (m ((c.tc : Thread nD τ).loc main_arg4)) :=
  (W4_of_ne m ρ c main_arg4 (by decide)).trans (W3_arg4 m ρ c)
theorem W4_arg5 (c : Dev nD) : W4 m ρ c (Proc.devRef .tc main_arg5) = (m ((c.tc : Thread nD τ).loc main_arg5)) :=
  (W4_of_ne m ρ c main_arg5 (by decide)).trans (W3_arg5 m ρ c)
theorem W4_arg6 (c : Dev nD) : W4 m ρ c (Proc.devRef .tc main_arg6) = (m ((c.tc : Thread nD τ).loc main_arg6)) :=
  (W4_of_ne m ρ c main_arg6 (by decide)).trans (W3_arg6 m ρ c)
theorem W4_arg7 (c : Dev nD) : W4 m ρ c (Proc.devRef .tc main_arg7) = (m ((c.tc : Thread nD τ).loc main_arg7)) :=
  (W4_of_ne m ρ c main_arg7 (by decide)).trans (W3_arg7 m ρ c)
theorem W4_arg8 (c : Dev nD) : W4 m ρ c (Proc.devRef .tc main_arg8) = (m ((c.tc : Thread nD τ).loc main_arg8)) :=
  (W4_of_ne m ρ c main_arg8 (by decide)).trans (W3_arg8 m ρ c)

/-- After the first launch its output array is `x · W₁`. -/
theorem W4_prod (c : Dev nD) : W4 m ρ c (Proc.devRef .tc main_v32) = GCN.lin (M := 100000) (K := 64) (N := 64) (m ((c.tc : Thread nD τ).loc main_arg0)) (m ((c.tc : Thread nD τ).loc main_arg3)) :=
  (W4_arr m ρ c 2).trans ((Region0.final (V3 m ρ) c).trans
    (congrArg₂ (fun a b => GCN.lin (M := 100000) (K := 64) (N := 64) a b) (W3_arg0 m ρ c) (W3_arg3 m ρ c)))

theorem W5_layer1 (c : Dev nD) : W5 m ρ c (Proc.devRef .tc main_v46) = layer1 (m ((c.tc : Thread nD τ).loc main_arg0)) (m ((c.tc : Thread nD τ).loc main_arg1)) (m ((c.tc : Thread nD τ).loc main_arg2)) (m ((c.tc : Thread nD τ).loc main_arg3)) := by
  rw [W5_agg, W4_row, W4_col, W4_norm, W4_prod]; rfl

theorem W6_row (c : Dev nD) : W6 m ρ c (Proc.devRef .tc main_v3) = rowOf (m ((c.tc : Thread nD τ).loc main_arg1)) :=
  (W6_of_ne m ρ c main_v3 (by decide)).trans ((W5_v3 m ρ c).trans (W4_row m ρ c))
theorem W6_col (c : Dev nD) : W6 m ρ c (Proc.devRef .tc main_v6) = colOf (m ((c.tc : Thread nD τ).loc main_arg1)) :=
  (W6_of_ne m ρ c main_v6 (by decide)).trans ((W5_v6 m ρ c).trans (W4_col m ρ c))
theorem W6_norm (c : Dev nD) : W6 m ρ c (Proc.devRef .tc main_v31) = normOf (rowOf (m ((c.tc : Thread nD τ).loc main_arg1))) (colOf (m ((c.tc : Thread nD τ).loc main_arg1))) (m ((c.tc : Thread nD τ).loc main_arg2)) :=
  (W6_of_ne m ρ c main_v31 (by decide)).trans ((W5_v31 m ρ c).trans (W4_norm m ρ c))
theorem W6_arg5 (c : Dev nD) : W6 m ρ c (Proc.devRef .tc main_arg5) = (m ((c.tc : Thread nD τ).loc main_arg5)) :=
  (W6_of_ne m ρ c main_arg5 (by decide)).trans ((W5_arg5 m ρ c).trans (W4_arg5 m ρ c))
theorem W6_arg6 (c : Dev nD) : W6 m ρ c (Proc.devRef .tc main_arg6) = (m ((c.tc : Thread nD τ).loc main_arg6)) :=
  (W6_of_ne m ρ c main_arg6 (by decide)).trans ((W5_arg6 m ρ c).trans (W4_arg6 m ρ c))
theorem W6_arg7 (c : Dev nD) : W6 m ρ c (Proc.devRef .tc main_arg7) = (m ((c.tc : Thread nD τ).loc main_arg7)) :=
  (W6_of_ne m ρ c main_arg7 (by decide)).trans ((W5_arg7 m ρ c).trans (W4_arg7 m ρ c))
theorem W6_arg8 (c : Dev nD) : W6 m ρ c (Proc.devRef .tc main_arg8) = (m ((c.tc : Thread nD τ).loc main_arg8)) :=
  (W6_of_ne m ρ c main_arg8 (by decide)).trans ((W5_arg8 m ρ c).trans (W4_arg8 m ρ c))

/-- After the second launch its output array is `relu(layer1) · W₂`. -/
theorem W6_prod (c : Dev nD) : W6 m ρ c (Proc.devRef .tc main_v47)
    = GCN.lin (M := 100000) (K := 64) (N := 64) (GCN.relu (s := S100000x64) (layer1 (m ((c.tc : Thread nD τ).loc main_arg0)) (m ((c.tc : Thread nD τ).loc main_arg1)) (m ((c.tc : Thread nD τ).loc main_arg2)) (m ((c.tc : Thread nD τ).loc main_arg3)))) (m ((c.tc : Thread nD τ).loc main_arg4)) :=
  (W6_arr m ρ c 2).trans ((Region1.final (V5 m ρ) c).trans
    (congrArg₂ (fun a b => GCN.lin (M := 100000) (K := 64) (N := 64) (GCN.relu (s := S100000x64) a) b) (W5_layer1 m ρ c)
      ((W5_arg4 m ρ c).trans (W4_arg4 m ρ c))))

theorem W7_layer2 (c : Dev nD) : W7 m ρ c (Proc.devRef .tc main_v61) = layer2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [W7_agg, W6_row, W6_col, W6_norm, W6_prod]; rfl

/-- After the third launch its first output array is the hidden state … -/
theorem W8_hidden (c : Dev nD) : W8 m ρ c (Proc.devRef .tc main_v64_0) = hiddenOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (W8_arr m ρ c 5).trans ((Region2.final5 (V7 m ρ) c).trans (congrArg (GCN.relu (s := S100000x64)) (W7_layer2 m ρ c)))

/-- … and its second the readout of the hidden state. -/
theorem W8_flat (c : Dev nD) : W8 m ρ c (Proc.devRef .tc main_v64_1)
    = flatOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (W8_arr m ρ c 6).trans ((Region2.final6 (V7 m ρ) c).trans ?_)
  show GCN.readout (M := 100000) (K := 64) (H := 64) (N := 384) (GCN.relu (s := S100000x64) (W7 m ρ c (Proc.devRef .tc main_v61)))
      (W7 m ρ c (Proc.devRef .tc main_arg5)) (W7 m ρ c (Proc.devRef .tc main_v62)) (W7 m ρ c (Proc.devRef .tc main_arg7))
      (W7 m ρ c (Proc.devRef .tc main_v63)) = _
  rw [W7_layer2, W7_arg5, W7_arg7, W7_b1, W7_b2, W6_arg5, W6_arg6, W6_arg7, W6_arg8]; rfl

/-- The program's first result: the readout reshaped to `[node, horizon, output]`. -/
theorem W9_result0 (c : Dev nD) : W9 m ρ c (Proc.devRef .tc main_v65)
    = shapeCast S100000x12x32 (flatOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
        shapeCasts_S100000x384_S100000x12x32 := by
  rw [W9_out, W8_flat]

/-- The program's second result: the hidden state. -/
theorem W9_result1 (c : Dev nD) : W9 m ρ c (Proc.devRef .tc main_v64_0) = hiddenOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (W9_hidden m ρ c).trans (W8_hidden m ρ c)

end Cert.KernelIdeal.FoldValue

end
-- ==== Proof.RefBridge.lean ====
/-
  The reference program's stages as the same functions of arrays that the kernel's program computes.

  The reference's host operations are, stage by stage, the ones the kernel's program runs between its launches (the
  edge indices, the normalisation — which the reference computes once per layer, with equal results —, the two
  aggregations), and where the kernel launches a matrix unit the reference has a `dot_general`: at the extended reals
  both are the plain sum over the contracted axis.  The bias rows reach the sums through different layout operations
  (a reshape to one row on the kernel's side, a broadcast on the reference's) that read the same entry.
-/
import proofs.«177352_j25632364822536_2_alg».proof.Proof.Gen.ReferenceIdeal.Read
import proofs.«177352_j25632364822536_2_alg».proof.Proof.KernelHost
import proofs.«177352_j25632364822536_2_alg».proof.Proof.Dense
import Idealize.ShloMosaic.Lib.ValueLayout

set_option maxRecDepth 16384

noncomputable section

namespace Cert.ReferenceIdeal.Bridge

open Cert.ReferenceIdeal Cert.ReferenceIdeal.Read Idealize.ShloMosaic Idealize.ShloMosaic.TcCoe Idealize.SL.Sem
open Idealize.ShloMosaic.ValueIdx
open Cert.KernelIdeal.HostValue (rowOf colOf normOf aggOf)

variable (x0 : (⟨S100000x64, .f32⟩ : BufTy).Contents (Elt Ideal)) (x1 : (⟨S2x1600000, .i32⟩ : BufTy).Contents (Elt Ideal))
  (x2 : (⟨S1600000, .f32⟩ : BufTy).Contents (Elt Ideal)) (x3 x4 x5 : (⟨S64x64, .f32⟩ : BufTy).Contents (Elt Ideal))
  (x6 : (⟨S64, .f32⟩ : BufTy).Contents (Elt Ideal)) (x7 : (⟨S64x384, .f32⟩ : BufTy).Contents (Elt Ideal))
  (x8 : (⟨S384, .f32⟩ : BufTy).Contents (Elt Ideal))

/-! ## The host stages -/

theorem row_eq : val_main_v3 (F := Ideal) x1 = rowOf x1 := by unfold rowOf; rfl
theorem col_eq : val_main_v6 (F := Ideal) x1 = colOf x1 := by unfold colOf; rfl
set_option maxHeartbeats 4000000 in
theorem norm_eq : val_main_v32 (F := Ideal) x1 x2 = normOf (val_main_v3 (F := Ideal) x1) (val_main_v6 (F := Ideal) x1) x2 := by
  unfold normOf; rfl
set_option maxHeartbeats 4000000 in
theorem norm2_eq : val_main_v70 (F := Ideal) x1 x2 = normOf (val_main_v3 (F := Ideal) x1) (val_main_v6 (F := Ideal) x1) x2 := by
  unfold normOf; rfl
set_option maxHeartbeats 4000000 in
theorem agg1_eq : val_main_v45 (F := Ideal) x0 x1 x2 x3
    = aggOf (val_main_v3 (F := Ideal) x1) (val_main_v6 (F := Ideal) x1) (val_main_v32 (F := Ideal) x1 x2) (val_main_v9 (F := Ideal) x0 x3) := by
  unfold aggOf; rfl
set_option maxHeartbeats 4000000 in
theorem agg2_eq : val_main_v83 (F := Ideal) x0 x1 x2 x3 x4
    = aggOf (val_main_v3 (F := Ideal) x1) (val_main_v6 (F := Ideal) x1) (val_main_v70 (F := Ideal) x1 x2) (val_main_v47 (F := Ideal) x0 x1 x2 x3 x4) := by
  unfold aggOf; rfl

/-! ## The dense stages -/

theorem lidx9 (p : Fin 100000) (q : Fin 64) (k : Fin 64) : lidx_main_v9 (ix2 p q) k = ix2 p k :=
  funext fun a => by match a with | ⟨0, _⟩ => rfl | ⟨1, _⟩ => rfl
theorem ridx9 (p : Fin 100000) (q : Fin 64) (k : Fin 64) : ridx_main_v9 (ix2 p q) k = ix2 k q :=
  funext fun a => by match a with | ⟨0, _⟩ => rfl | ⟨1, _⟩ => rfl
theorem lidx47 (p : Fin 100000) (q : Fin 64) (k : Fin 64) : lidx_main_v47 (ix2 p q) k = ix2 p k :=
  funext fun a => by match a with | ⟨0, _⟩ => rfl | ⟨1, _⟩ => rfl
theorem ridx47 (p : Fin 100000) (q : Fin 64) (k : Fin 64) : ridx_main_v47 (ix2 p q) k = ix2 k q :=
  funext fun a => by match a with | ⟨0, _⟩ => rfl | ⟨1, _⟩ => rfl
theorem lidx85 (p : Fin 100000) (q : Fin 64) (k : Fin 64) : lidx_main_v85 (ix2 p q) k = ix2 p k :=
  funext fun a => by match a with | ⟨0, _⟩ => rfl | ⟨1, _⟩ => rfl
theorem ridx85 (p : Fin 100000) (q : Fin 64) (k : Fin 64) : ridx_main_v85 (ix2 p q) k = ix2 k q :=
  funext fun a => by match a with | ⟨0, _⟩ => rfl | ⟨1, _⟩ => rfl
theorem lidx90 (p : Fin 100000) (q : Fin 384) (k : Fin 64) : lidx_main_v90 (ix2 p q) k = ix2 p k :=
  funext fun a => by match a with | ⟨0, _⟩ => rfl | ⟨1, _⟩ => rfl
theorem ridx90 (p : Fin 100000) (q : Fin 384) (k : Fin 64) : ridx_main_v90 (ix2 p q) k = ix2 k q :=
  funext fun a => by match a with | ⟨0, _⟩ => rfl | ⟨1, _⟩ => rfl

theorem zero1 (i : S100000x64.Idx) : val_main_call1_v0 (F := Ideal) i = 0 := by
  rw [val_main_call1_v0_apply, val_main_call1_cst_apply]; exact Ideal.ofBits_zero_f32
theorem zero3 (i : S100000x64.Idx) : val_main_call3_v0 (F := Ideal) i = 0 := by
  rw [val_main_call3_v0_apply, val_main_call3_cst_apply]; exact Ideal.ofBits_zero_f32
theorem zero4 (i : S100000x64.Idx) : val_main_call4_v0 (F := Ideal) i = 0 := by
  rw [val_main_call4_v0_apply, val_main_call4_cst_apply]; exact Ideal.ofBits_zero_f32

/-- The first layer's `dot_general` is the matrix product. -/
theorem prod1_eq : val_main_v9 (F := Ideal) x0 x3 = GCN.lin (M := 100000) (K := 64) (N := 64) x0 x3 := by
  funext i
  obtain ⟨p, q, rfl⟩ : ∃ (p : Fin 100000) (q : Fin 64), i = ix2 p q := ⟨i 0, i 1, eq_ix2 i⟩
  rw [val_main_v9_apply]
  refine Finset.sum_congr rfl fun k _ => ?_
  rw [lidx9, ridx9]

/-- The second layer's `dot_general` is the product of the rectified first layer by the second weight. -/
theorem prod2_eq : val_main_v47 (F := Ideal) x0 x1 x2 x3 x4
    = GCN.lin (M := 100000) (K := 64) (N := 64) (GCN.relu (s := S100000x64) (val_main_v45 (F := Ideal) x0 x1 x2 x3)) x4 := by
  funext i
  obtain ⟨p, q, rfl⟩ : ∃ (p : Fin 100000) (q : Fin 64), i = ix2 p q := ⟨i 0, i 1, eq_ix2 i⟩
  rw [val_main_v47_apply]
  refine Finset.sum_congr rfl fun k _ => ?_
  rw [lidx47, ridx47, val_main_v46_apply, zero1]
  rfl

/-- The hidden state is the rectified second layer. -/
theorem hidden_eq : val_main_v84 (F := Ideal) x0 x1 x2 x3 x4
    = GCN.relu (s := S100000x64) (val_main_v83 (F := Ideal) x0 x1 x2 x3 x4) := by
  funext i
  rw [val_main_v84_apply, zero3]
  rfl

/-- The readout's first dense layer. -/
theorem pre_eq : val_main_v88 (F := Ideal) x0 x1 x2 x3 x4 x5 x6
    = GCN.affine (M := 100000) (K := 64) (N := 64) (val_main_v84 (F := Ideal) x0 x1 x2 x3 x4) x5 (val_main_v86 (F := Ideal) x6) := by
  funext i
  obtain ⟨p, q, rfl⟩ : ∃ (p : Fin 100000) (q : Fin 64), i = ix2 p q := ⟨i 0, i 1, eq_ix2 i⟩
  rw [val_main_v88_apply, val_main_v85_apply, val_main_v87_apply]
  refine congrArg₂ (· + ·) (Finset.sum_congr rfl fun k _ => ?_) (congrArg (val_main_v86 (F := Ideal) x6) ?_)
  · rw [lidx85, ridx85]
  · exact funext fun a => by match a with | ⟨0, _⟩ => rfl | ⟨1, _⟩ => rfl

theorem act_eq : val_main_v89 (F := Ideal) x0 x1 x2 x3 x4 x5 x6
    = GCN.relu (s := S100000x64) (val_main_v88 (F := Ideal) x0 x1 x2 x3 x4 x5 x6) := by
  funext i
  rw [val_main_v89_apply, zero4]
  rfl

/-- The readout's second dense layer. -/
theorem post_eq : val_main_v93 (F := Ideal) x0 x1 x2 x3 x4 x5 x6 x7 x8
    = GCN.affine (M := 100000) (K := 64) (N := 384) (val_main_v89 (F := Ideal) x0 x1 x2 x3 x4 x5 x6) x7 (val_main_v91 (F := Ideal) x8) := by
  funext i
  obtain ⟨p, q, rfl⟩ : ∃ (p : Fin 100000) (q : Fin 384), i = ix2 p q := ⟨i 0, i 1, eq_ix2 i⟩
  rw [val_main_v93_apply, val_main_v90_apply, val_main_v92_apply]
  refine congrArg₂ (· + ·) (Finset.sum_congr rfl fun k _ => ?_) (congrArg (val_main_v91 (F := Ideal) x8) ?_)
  · rw [lidx90, ridx90]
  · exact funext fun a => by match a with | ⟨0, _⟩ => rfl | ⟨1, _⟩ => rfl

/-- The readout, whole. -/
theorem flat_eq : val_main_v93 (F := Ideal) x0 x1 x2 x3 x4 x5 x6 x7 x8
    = GCN.readout (M := 100000) (K := 64) (H := 64) (N := 384) (val_main_v84 (F := Ideal) x0 x1 x2 x3 x4) x5
        (val_main_v86 (F := Ideal) x6) x7 (val_main_v91 (F := Ideal) x8) := by
  rw [post_eq, act_eq, pre_eq]; rfl

/-- The first bias as one row: the broadcast of the vector onto axis 1 of `[1, 64]` and its reshape to `[1, 64]`
    both read the vector's entry. -/
theorem bias1_eq (h : S64.ShapeCasts S1x64) : val_main_v86 (F := Ideal) x6 = shapeCast S1x64 x6 h := by
  funext i
  obtain ⟨u, q, rfl⟩ : ∃ (u : Fin 1) (q : Fin 64), i = ix2 u q := ⟨i 0, i 1, eq_ix2 i⟩
  rw [val_main_v86_apply, shapeCast_a_1a_apply x6 h u q]
  exact congrArg x6 (funext fun a => by match a with | ⟨0, _⟩ => rfl)

theorem bias2_eq (h : S384.ShapeCasts S1x384) : val_main_v91 (F := Ideal) x8 = shapeCast S1x384 x8 h := by
  funext i
  obtain ⟨u, q, rfl⟩ : ∃ (u : Fin 1) (q : Fin 384), i = ix2 u q := ⟨i 0, i 1, eq_ix2 i⟩
  rw [val_main_v91_apply, shapeCast_a_1a_apply x8 h u q]
  exact congrArg x8 (funext fun a => by match a with | ⟨0, _⟩ => rfl)

end Cert.ReferenceIdeal.Bridge
end
-- ==== Proof.Equal.lean ====
/-
  The two programs compute one function.

  Stage by stage the reference's values are the kernel's: the edge indices and the normalisation are the same host
  operations; each `dot_general` is the matrix product the matching launch leaves; the rectifiers are entrywise; the
  bias rows read the same entries.  Nothing here uses finiteness of the inputs: no step distributes a product over a
  sum or cancels, so the equalities hold at the infinities as well.
-/
import proofs.«177352_j25632364822536_2_alg».proof.Proof.KernelValue
import proofs.«177352_j25632364822536_2_alg».proof.Proof.RefBridge

set_option maxRecDepth 16384

noncomputable section

namespace Cert.ReferenceIdeal.Bridge

open Cert.ReferenceIdeal Cert.ReferenceIdeal.Read Idealize.ShloMosaic Idealize.ShloMosaic.TcCoe Idealize.SL.Sem
open Cert.KernelIdeal.FoldValue (layer1 layer2 hiddenOf flatOf)

variable (x0 : (⟨S100000x64, .f32⟩ : BufTy).Contents (Elt Ideal)) (x1 : (⟨S2x1600000, .i32⟩ : BufTy).Contents (Elt Ideal))
  (x2 : (⟨S1600000, .f32⟩ : BufTy).Contents (Elt Ideal)) (x3 x4 x5 : (⟨S64x64, .f32⟩ : BufTy).Contents (Elt Ideal))
  (x6 : (⟨S64, .f32⟩ : BufTy).Contents (Elt Ideal)) (x7 : (⟨S64x384, .f32⟩ : BufTy).Contents (Elt Ideal))
  (x8 : (⟨S384, .f32⟩ : BufTy).Contents (Elt Ideal))

theorem layer1_eq : val_main_v45 (F := Ideal) x0 x1 x2 x3 = layer1 x0 x1 x2 x3 := by
  rw [agg1_eq, norm_eq, row_eq, col_eq, prod1_eq]; rfl

theorem layer2_eq : val_main_v83 (F := Ideal) x0 x1 x2 x3 x4 = layer2 x0 x1 x2 x3 x4 := by
  rw [agg2_eq, norm2_eq, row_eq, col_eq, prod2_eq, layer1_eq]; rfl

/-- The second results agree. -/
theorem hidden_final : val_main_v84 (F := Ideal) x0 x1 x2 x3 x4 = hiddenOf x0 x1 x2 x3 x4 := by
  rw [hidden_eq, layer2_eq]; rfl

theorem flat_final : val_main_v93 (F := Ideal) x0 x1 x2 x3 x4 x5 x6 x7 x8 = flatOf x0 x1 x2 x3 x4 x5 x6 x7 x8 := by
  rw [flat_eq, hidden_final, bias1_eq x6 Cert.KernelIdeal.Facts₀.shapeCasts_S64_S1x64,
    bias2_eq x8 Cert.KernelIdeal.Facts₀.shapeCasts_S384_S1x384]; rfl

/-- The first results agree: the same reshape of equal arrays. -/
theorem result_final : val_main_v94 (F := Ideal) x0 x1 x2 x3 x4 x5 x6 x7 x8
    = shapeCast Cert.KernelIdeal.S100000x12x32 (flatOf x0 x1 x2 x3 x4 x5 x6 x7 x8) Cert.KernelIdeal.Facts₀.shapeCasts_S100000x384_S100000x12x32 := by
  unfold val_main_v94
  rw [flat_final]

end Cert.ReferenceIdeal.Bridge

end
-- ==== Proof.lean ====
/-
  Equivalence of a two-layer graph convolution network with a two-layer readout, computed by three tiled kernels
  among host gathers and scatter-adds, with its plain reference.

  Both programs first build, from the edge list and edge weights, the source and target index of every edge (self-loops
  appended) and the symmetric normalisation of every edge.  A layer multiplies the node features by its weight and
  aggregates the product's rows along the edges: row `col[e]` of the result accumulates row `row[e]` of the product
  scaled by the edge's normalisation.  The kernel program computes the two products on the matrix unit, ten blocks of
  10000 rows each (the second after rectifying its input block), and leaves gathers and scatter-adds to the host; a
  third kernel, over 25 blocks of 4000 rows, rectifies the second aggregate (the hidden state) and applies the readout
  `relu(h·A₁ + b₁)·A₂ + b₂`.  Every entry of a product, of a rectifier and of the readout depends on one row of the
  left operand, so the tiling is immaterial, and at the extended reals the matrix unit's product into a zero
  accumulator and the host's `dot_general` are the same plain sum over the contracted axis.  The remaining host
  operations are the same in both programs, operation by operation.

  The three frames: the two kernel programs' are the generated launch certificates; the reference's is its run with the
  results dropped.  The idealization rewrote no operation, so there is nothing to preserve.  The value claim: the
  kernel program's run with its two results named (the fold of buffer contents through the program, read buffer by
  buffer) beside the reference's run, the two pairs of results being one pair of functions of the nine arguments.
-/
import proofs.«177352_j25632364822536_2_alg».proof.Defs
import proofs.«177352_j25632364822536_2_alg».proof.Proof.Gen.Kernel
import proofs.«177352_j25632364822536_2_alg».proof.Proof.Gen.Kernel.Skeleton
import proofs.«177352_j25632364822536_2_alg».proof.Proof.Gen.Kernel.Launch
import proofs.«177352_j25632364822536_2_alg».proof.Proof.Gen.Kernel.Points
import proofs.«177352_j25632364822536_2_alg».proof.Proof.Gen.Kernel.Frame
import proofs.«177352_j25632364822536_2_alg».proof.Proof.Gen.KernelIdeal
import proofs.«177352_j25632364822536_2_alg».proof.Proof.Gen.KernelIdeal.Skeleton
import proofs.«177352_j25632364822536_2_alg».proof.Proof.Gen.KernelIdeal.Launch
import proofs.«177352_j25632364822536_2_alg».proof.Proof.Gen.KernelIdeal.Points
import proofs.«177352_j25632364822536_2_alg».proof.Proof.Gen.KernelIdeal.Frame
import proofs.«177352_j25632364822536_2_alg».proof.Proof.Gen.ReferenceIdeal
import proofs.«177352_j25632364822536_2_alg».proof.Proof.Gen.ReferenceIdeal.Run
import proofs.«177352_j25632364822536_2_alg».proof.Proof.Gen.ReferenceIdeal.Read
import proofs.«177352_j25632364822536_2_alg».proof.Proof.Gen.Pre_finite_inputs
import proofs.«177352_j25632364822536_2_alg».proof.Proof.KernelRun
import proofs.«177352_j25632364822536_2_alg».proof.Proof.KernelValue
import proofs.«177352_j25632364822536_2_alg».proof.Proof.Equal
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories agreeing on the nine arguments both programs end with the readout reshaped to
    `[node, horizon, output]` and the hidden state, the same two functions of the arguments. -/
theorem algebraic : Cert.algebraic_KernelIdeal_ReferenceIdeal := by
  intro m ρ m' ρ' _ hagree
  refine ⟨fun c => shapeCast Cert.KernelIdeal.S100000x12x32
        (Cert.KernelIdeal.FoldValue.flatOf
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8)))
        Cert.KernelIdeal.Facts₀.shapeCasts_S100000x384_S100000x12x32,
      fun c => Cert.KernelIdeal.FoldValue.hiddenOf
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.FoldValue.W9_result0 m ρ c),
        (h c).2.1.trans (Cert.KernelIdeal.FoldValue.W9_result1 m ρ c), (h c).2.2⟩)
      (Cert.KernelIdeal.RunValue.run_fold (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · rw [Cert.ReferenceIdeal.Read.val_main_v94_eq, (hagree c).1, (hagree c).2.1, (hagree c).2.2.1, (hagree c).2.2.2.1,
        (hagree c).2.2.2.2.1, (hagree c).2.2.2.2.2.1, (hagree c).2.2.2.2.2.2.1, (hagree c).2.2.2.2.2.2.2.1,
        (hagree c).2.2.2.2.2.2.2.2]
      exact Cert.ReferenceIdeal.Bridge.result_final _ _ _ _ _ _ _ _ _
    · rw [Cert.ReferenceIdeal.Read.val_main_v84_eq, (hagree c).1, (hagree c).2.1, (hagree c).2.2.1, (hagree c).2.2.2.1,
        (hagree c).2.2.2.2.1]
      exact Cert.ReferenceIdeal.Bridge.hidden_final _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
